-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4096x4096 .f32) (main_arg1 : FVec F S4096x11008 .f32) (main_arg2 : FVec F S11008x4096 .f32) (main_arg3 : FVec F S4096x11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩
abbrev S4096x11264 : Shape := ⟨2, ![4096, 11264]⟩
abbrev S11264x4096 : Shape := ⟨2, ![11264, 4096]⟩
abbrev S1024x1024 : Shape := ⟨2, ![1024, 1024]⟩

abbrev nBuf : Space → Nat
  | .hbm => 19
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S11008x4096, .f32⟩
  | .hbm, ⟨3, _⟩ => ⟨S4096x11008, .f32⟩
  | .hbm, ⟨4, _⟩ => ⟨S4096x4096, .bf16⟩
  | .hbm, ⟨5, _⟩ => ⟨S4096x11008, .bf16⟩
  | .hbm, ⟨6, _⟩ => ⟨S_, .i32⟩
  | .hbm, ⟨7, _⟩ => ⟨S_, .bf16⟩
  | .hbm, ⟨8, _⟩ => ⟨S4096x11264, .bf16⟩
  | .hbm, ⟨9, _⟩ => ⟨S4096x11008, .bf16⟩
  | .hbm, ⟨10, _⟩ => ⟨S_, .i32⟩
  | .hbm, ⟨11, _⟩ => ⟨S_, .bf16⟩
  | .hbm, ⟨12, _⟩ => ⟨S4096x11264, .bf16⟩
  | .hbm, ⟨13, _⟩ => ⟨S11008x4096, .bf16⟩
  | .hbm, ⟨14, _⟩ => ⟨S_, .i32⟩
  | .hbm, ⟨15, _⟩ => ⟨S_, .bf16⟩
  | .hbm, ⟨16, _⟩ => ⟨S11264x4096, .bf16⟩
  | .hbm, ⟨17, _⟩ => ⟨S4096x11264, .bf16⟩
  | .hbm, ⟨18, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![4, 11, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 11], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bitsLt_bf16_f32 : FTy.bits .bf16 < FTy.bits .f32
  pads_S4096x11008_S4096x11264_000_02560 : S4096x11008.Pads (![0, 0] : Fin 2 → Nat) ![0, 256] ![0, 0] S4096x11264
  h_S_ : 0 < S_.numel
  pads_S11008x4096_S11264x4096_02560_000 : S11008x4096.Pads (![0, 0] : Fin 2 → Nat) ![256, 0] ![0, 0] S11264x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x11264.size a
  hwx0_1 : ∀ i : grid0.Coords, EltTy.bits .bf16 = 32 ∨ (Rect.block (s := S4096x11264) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x11264.size a
  hwx0_2 : ∀ i : grid0.Coords, EltTy.bits .bf16 = 32 ∨ (Rect.block (s := S4096x11264) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x11264.size a
  hwx0_3 : ∀ i : grid0.Coords, EltTy.bits .bf16 = 32 ∨ (Rect.block (s := S4096x11264) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x11264.size a
  hwx1_0 : ∀ i : grid1.Coords, EltTy.bits .bf16 = 32 ∨ (Rect.block (s := S4096x11264) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S11264x4096.size a
  hwx1_1 : ∀ i : grid1.Coords, EltTy.bits .bf16 = 32 ∨ (Rect.block (s := S11264x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S11008x4096, .f32⟩
  | .hbm, ⟨3, _⟩ => ⟨S4096x11008, .f32⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S_, .f32⟩
  | .hbm, ⟨9, _⟩ => ⟨S4096x11008, .f32⟩
  | .hbm, ⟨10, _⟩ => ⟨S4096x11008, .f32⟩
  | .hbm, ⟨11, _⟩ => ⟨S_, .f32⟩
  | .hbm, ⟨12, _⟩ => ⟨S4096x11008, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x11008 : S_.BroadcastsInDim S4096x11008 (![] : Fin 0 → Fin S4096x11008.rank)
  dot_S4096x4096_S4096x11008_S4096x11008_1_0_0_1_n_n_wf : DotDims.WF S4096x4096 S4096x11008 S4096x11008 [1] [0] [0] [1] [] []
  dot_S4096x11008_S11008x4096_S4096x4096_1_0_0_1_n_n_wf : DotDims.WF S4096x11008 S11008x4096 S4096x4096 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf
def dot_S4096x11008_S11008x4096_S4096x4096_1_0_0_1_n_n : DotDims S4096x11008 S11008x4096 S4096x4096 where
  lhsContracting := [1]
  rhsContracting := [0]
  lhsNonContracting := [0]
  rhsNonContracting := [1]
  lhsBatch := []
  rhsBatch := []
  wf := dot_S4096x11008_S11008x4096_S4096x4096_1_0_0_1_n_n_wf

class Facts : Prop extends Facts₀ where

variable [Facts]
-- ==== Proof.KBBase.lean ====
/-
  The two kernels' branch conditions in closed form over their grids, where the first kernel's output window is idle,
  and the scoped buffers outside each kernel's staging buffers written as owned memrefs.

  Grid 0 is (4, 11, 4) and grid 1 is (4, 4, 11), both walked with the last coordinate fastest: the last coordinate k is
  the reduction step. Kernel 0 resets its two accumulators at k = 0 and writes its output block at k = 3; kernel 1
  resets its output block at k = 0.
-/
import proofs.«132609_j42717744726585_2_alg».proof.Proof.Gen.Kernel.Launch
import proofs.«132609_j42717744726585_2_alg».proof.Proof.Gen.Kernel.Skeleton
import proofs.«132609_j42717744726585_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Kernel 0: the conditions -/

/-- The reset condition of kernel 0 (k = 0), as the body computes it from the grid coordinates. -/
abbrev cond0_0 (i : grid0.Coords) : Prop := (Scalar.cmpi .ne (Scalar.extui (Scalar.cmpi .eq (BitVec.ofNat 32 (i 2).val) 0#32)) 0#32) = 1#1
/-- It holds exactly at the points whose number is a multiple of 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The finishing condition of kernel 0 (k = 3). -/
abbrev cond0_1 (i : grid0.Coords) : Prop := k0_cond2 i = 1#1
/-- It holds exactly at the points whose number is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Kernel 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 3 the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At k = 3 it is live. -/
theorem liveAt0_3 : ∀ t : Fin cfg0.N, cond0_1 (grid0.coords t) → cfg0.idle 3 (grid0.coords t) = false := by decide +kernel

/-! ## Kernel 0: the memrefs the body is called with -/

abbrev VO0_3 : View sig .tc .vmem S1024x1024 .bf16 := (Memref.whole cc0_stg3_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers that are no staging buffer of kernel 0, with the two accumulators as memrefs owned at some
    contents and the others left as they come. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## Kernel 1 -/

/-- The reset condition of kernel 1 (k = 0). -/
abbrev cond1_0 (i : grid1.Coords) : Prop := (Scalar.cmpi .ne (Scalar.extui (Scalar.cmpi .eq (BitVec.ofNat 32 (i 2).val) 0#32)) 0#32) = 1#1
/-- It holds exactly at the points whose number is a multiple of 11. -/
theorem hcond1_0 : ∀ t : Fin cfg1.N, cond1_0 (grid1.coords t) ↔ t.val % 11 = 0 :=
  (by decide +kernel : ∀ t : Fin grid1.N, cond1_0 (grid1.coords t) ↔ t.val % 11 = 0)

abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

end Cert.Kernel.Hand

end
-- ==== Proof.KBRun0A.lean ====
/-
  Kernel 0 at a point with k = 0: both accumulators are overwritten with zero and then with zero plus the point's
  block product; the output buffer is not touched.
-/
import proofs.«132609_j42717744726585_2_alg».proof.Proof.KBBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the two accumulators at a point with k = 0, with the body's triple: the inputs' buffers
    at their blocks and the output's at `xi3` are handed back as found; the accumulators, entered at anything, end with
    their pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x1024 .bf16) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.KBRun0B.lean ====
/-
  Kernel 0 at a point with k = 1 or k = 2: each accumulator, entered at what the point before left, is overwritten with
  that plus the point's block product; the output buffer is not touched.
-/
import proofs.«132609_j42717744726585_2_alg».proof.Proof.KBBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the two accumulators at a point with 0 < k < 3, with the body's triple: the inputs'
    buffers at their blocks and the output's at `xi3` are handed back as found; the accumulators, entered at `xs0` and
    `xs1`, end with their pieces written. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x1024 .bf16) (xs0 xs1 : Vec F S1024x1024 .f32) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.KBRun0C.lean ====
/-
  Kernel 0 at a point with k = 3: each accumulator is overwritten with what the point before left plus the point's block
  product, and the output buffer with the gated product of the two finished accumulators.
-/
import proofs.«132609_j42717744726585_2_alg».proof.Proof.KBBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output buffer and the two accumulators at a point with k = 3, with the body's
    triple: the inputs' buffers at their blocks are handed back as found; the output's, entered at anything, and the
    accumulators, entered at `xs0` and `xs1`, end with their pieces written. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x1024 .bf16) (xs0 xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, ?_, fun E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.KBFrame0.lean ====
/-
  Kernel 0 (the gate and up projections with the gated product) as one pipeline over its grid of 4 x 11 x 4 points.

  What the two accumulators and the output buffer hold after each point is defined by recursion on the point's number:
  at k = 0 the accumulators restart from zero, at the other points they continue from what the point before left, and at
  k = 3 the output buffer receives the gated product. The accumulators' contents ride from point to point in the
  region's invariant. From that: the body's obligation at every point.
-/
import proofs.«132609_j42717744726585_2_alg».proof.Proof.KBRun0A
import proofs.«132609_j42717744726585_2_alg».proof.Proof.KBRun0B
import proofs.«132609_j42717744726585_2_alg».proof.Proof.KBRun0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves -/

/-- The output buffer's contents at a point that does not store into it: a placeholder nothing consults. -/
def junk0_3 : Vec F S1024x1024 .bf16 := VO0_3.read (Elt F) VO0_3.junk

theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) (y : S1024x1024.Idx) :
    ∃ pc ∈ (kernelRun0_A c i arg3 harg3 arg4 harg4 arg5 harg5 arg6 harg6 arg7 harg7 arg8 harg8 hc0 hc1 x0 x1 x2).1, y ∈ pc.1.set :=
  View.cover_of_tiledL (kernelRun0_A c i arg3 harg3 arg4 harg4 arg5 harg5 arg6 harg6 arg7 harg7 arg8 harg8 hc0 hc1 x0 x1 x2).1 S1024x1024.size (by sl_kernel_rfl) y
theorem scover0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) (y : S1024x1024.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1024x1024.size (by sl_kernel_rfl) y
/-- What case A leaves in the first accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) : Vec F S1024x1024 .f32 :=
  VS0_0.read (Elt F) (VS0_0.writes (Elt F) VS0_0.junk (kernelRun0_A c i arg3 harg3 arg4 harg4 arg5 harg5 arg6 harg6 arg7 harg7 arg8 harg8 hc0 hc1 x0 x1 x2).1)
/-- What case A leaves in the second accumulator. -/
def sout0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) : Vec F S1024x1024 .f32 :=
  VS0_1.read (Elt F) (VS0_1.writes (Elt F) VS0_1.junk (kernelRun0_A c i arg3 harg3 arg4 harg4 arg5 harg5 arg6 harg6 arg7 harg7 arg8 harg8 hc0 hc1 x0 x1 x2).2.1)

theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).1, y ∈ pc.1.set :=
  View.cover_of_tiledL (kernelRun0_B c i arg3 harg3 arg4 harg4 arg5 harg5 arg6 harg6 arg7 harg7 arg8 harg8 hc0 hc1 x0 x1 x2 xs0 xs1).1 S1024x1024.size (by sl_kernel_rfl) y
theorem scover0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL (kernelRun0_B c i arg3 harg3 arg4 harg4 arg5 harg5 arg6 harg6 arg7 harg7 arg8 harg8 hc0 hc1 x0 x1 x2 xs0 xs1).2.1 S1024x1024.size (by sl_kernel_rfl) y
/-- What case B leaves in the first accumulator: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 hc1 x0 x1 x2 xs0 xs1).1)
/-- What case B leaves in the second accumulator. -/
def sout0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) : Vec F S1024x1024 .f32 :=
  VS0_1.read (Elt F) (VS0_1.writes (Elt F) VS0_1.junk (kernelRun0_B c i arg3 harg3 arg4 harg4 arg5 harg5 arg6 harg6 arg7 harg7 arg8 harg8 hc0 hc1 x0 x1 x2 xs0 xs1).2.1)

theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).1, y ∈ pc.1.set :=
  View.cover_of_tiledL (kernelRun0_C c i arg3 harg3 arg4 harg4 arg5 harg5 arg6 harg6 arg7 harg7 arg8 harg8 hc0 hc1 x0 x1 x2 xs0 xs1).1 S1024x1024.size (by sl_kernel_rfl) y
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.1, y ∈ pc.1.set :=
  View.cover_of_tiledL (kernelRun0_C c i arg3 harg3 arg4 harg4 arg5 harg5 arg6 harg6 arg7 harg7 arg8 harg8 hc0 hc1 x0 x1 x2 xs0 xs1).2.1 S1024x1024.size (by sl_kernel_rfl) y
theorem scover0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.2.1, y ∈ pc.1.set :=
  View.cover_of_tiledL (kernelRun0_C c i arg3 harg3 arg4 harg4 arg5 harg5 arg6 harg6 arg7 harg7 arg8 harg8 hc0 hc1 x0 x1 x2 xs0 xs1).2.2.1 S1024x1024.size (by sl_kernel_rfl) y
/-- What case C leaves in the output buffer: its pieces read back. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 arg8 harg8 hc0 hc1 x0 x1 x2 xs0 xs1).1)
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 hc0 hc1 x0 x1 x2 xs0 xs1).2.1)
def sout0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) : Vec F S1024x1024 .f32 :=
  VS0_1.read (Elt F) (VS0_1.writes (Elt F) VS0_1.junk (kernelRun0_C c i arg3 harg3 arg4 harg4 arg5 harg5 arg6 harg6 arg7 harg7 arg8 harg8 hc0 hc1 x0 x1 x2 xs0 xs1).2.2.1)

section
variable (V : (c : Dev nD) → (b : Ref sig .tc) → Buf (Elt F) ((c : Thread nD τ).loc b))

/-! ## What the buffers hold after each point -/

/-- After the body at point `n`: the output buffer, the first accumulator, the second accumulator. The case is the one
    the closed forms select at `n`; the accumulators it continues from are what this leaves at `n - 1`. -/
def outsAt0 (c : Dev nD) : (n : ℕ) → n < cfg0.N → Vec F S1024x1024 .bf16 × Vec F S1024x1024 .f32 × Vec F S1024x1024 .f32
  | 0, hn => (junk0_3,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      (junk0_3,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (junk0_3,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a point with k = 0. -/
theorem outsAt0_A (c : Dev nD) (t : Fin cfg0.N) (h0 : t.val % 4 = 0) (h1 : ¬t.val % 4 = 3) :
    outsAt0 V c t.val t.isLt = (junk0_3,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

/-- `outsAt0` at a point with 0 < k < 3. -/
theorem outsAt0_B (c : Dev nD) (t : Fin cfg0.N) (h0 : ¬t.val % 4 = 0) (h1 : ¬t.val % 4 = 3) :
    outsAt0 V c t.val t.isLt = (junk0_3,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 3. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- Before point `n`: at the first point every scoped buffer outside the staging buffers at anything; afterwards the two
    accumulators at what the point before left, the others at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-- The proof data of pipeline 0 on core `c`: the arrays as the region finds them; after the body at a point each
    input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end

end Cert.Kernel.Hand

end
-- ==== Proof.KBBody0.lean ====
/-
  The body obligation of kernel 0 at every grid point: the inputs' buffers hold their blocks; the closed forms say which
  case the point is in; the invariant hands the body the two accumulators (at anything at the very first point, at what
  the point before left afterwards) and takes them back at this point's contents; nothing is owed.
-/
import proofs.«132609_j42717744726585_2_alg».proof.Proof.KBFrame0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 176 := lt_of_lt_of_eq t.isLt (show cfg0.N = 176 from N_0)
  by_cases h0 : t.val % 4 = 0
  · by_cases h1 : t.val % 4 = 3
    · exfalso; omega
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hr⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the scoped rest beside the generator register. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back: the accumulators' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 176 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end

end Cert.Kernel.Hand

end
-- ==== Proof.KBRun1A.lean ====
/-
  Kernel 1 at a point with k = 0: the output buffer is overwritten with zero and then with zero plus the point's block
  product.
-/
import proofs.«132609_j42717744726585_2_alg».proof.Proof.KBBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output buffer at a point with k = 0, with the body's triple: the inputs' buffers at
    their blocks are handed back as found; the output's, entered at anything, ends with its pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : cond1_0 i)
    (x0 x1 : Vec F S1024x1024 .bf16) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1__ffn2_kernel i arg3 harg3 arg4 harg4 arg5 harg5) K } := by
  refine ⟨?_, fun E K => ?run⟩
  case run =>
    simp only [cc1__ffn2_kernel_eq_skeleton]; unfold cc1__ffn2_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Hand

end
-- ==== Proof.KBRun1B.lean ====
/-
  Kernel 1 at a point with k > 0: the output buffer, entered at what the point before left, is overwritten with that plus
  the point's block product.
-/
import proofs.«132609_j42717744726585_2_alg».proof.Proof.KBBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output buffer at a point with k > 0, with the body's triple: the inputs' buffers at
    their blocks are handed back as found; the output's, entered at `xo2`, ends with its pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : ¬cond1_0 i)
    (x0 x1 : Vec F S1024x1024 .bf16) (xo2 : Vec F S1024x1024 .f32) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1__ffn2_kernel i arg3 harg3 arg4 harg4 arg5 harg5) K } := by
  refine ⟨?_, fun E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Hand

end
-- ==== Proof.KBFrame1.lean ====
/-
  Kernel 1 (the down projection) as one pipeline over its grid of 4 x 4 x 11 points: its output block stays in its
  staging buffer across the 11 reduction steps, restarted from zero at k = 0 and written back after k = 10. What the
  buffer holds after each point is defined by recursion on the point's number; from that, the body's obligation at
  every point. The region's invariant is the plain one: the scoped rest and the generator register ride through unread.
-/
import proofs.«132609_j42717744726585_2_alg».proof.Proof.KBRun1A
import proofs.«132609_j42717744726585_2_alg».proof.Proof.KBRun1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

theorem cover1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : cond1_0 i) (x0 x1 : Vec F S1024x1024 .bf16) (y : S1024x1024.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S1024x1024.size (by sl_kernel_rfl) y
/-- What the case k = 0 leaves in the output buffer: its pieces read back. -/
def out1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : cond1_0 i) (x0 x1 : Vec F S1024x1024 .bf16) : Vec F S1024x1024 .f32 :=
  VO1_2.read (Elt F) (VO1_2.writes (Elt F) VO1_2.junk (kernelRun1_A c i arg3 harg3 arg4 harg4 arg5 harg5 hc0 x0 x1).1)
theorem cover1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : ¬cond1_0 i) (x0 x1 : Vec F S1024x1024 .bf16) (xo2 : Vec F S1024x1024 .f32) (y : S1024x1024.Idx) :
    ∃ pc ∈ (kernelRun1_B c i arg3 harg3 arg4 harg4 arg5 harg5 hc0 x0 x1 xo2).1, y ∈ pc.1.set :=
  View.cover_of_tiledL (kernelRun1_B c i arg3 harg3 arg4 harg4 arg5 harg5 hc0 x0 x1 xo2).1 S1024x1024.size (by sl_kernel_rfl) y
/-- What the case k > 0 leaves in the output buffer. -/
def out1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : ¬cond1_0 i) (x0 x1 : Vec F S1024x1024 .bf16) (xo2 : Vec F S1024x1024 .f32) : Vec F S1024x1024 .f32 :=
  VO1_2.read (Elt F) (VO1_2.writes (Elt F) VO1_2.junk (kernelRun1_B c i arg3 harg3 arg4 harg4 arg5 harg5 hc0 x0 x1 xo2).1)

section
variable (V : (c : Dev nD) → (b : Ref sig .tc) → Buf (Elt F) ((c : Thread nD τ).loc b))

/-- What the output's staging buffer holds after the body at point `n`. -/
def outsAt1 (c : Dev nD) : (n : ℕ) → n < cfg1.N → Vec F S1024x1024 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 11 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 11 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 11 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with k > 0 the output's staging buffer holds what the body left at the point before: the point is not the
    first and the buffer was not written back between. -/
theorem before1_2_B (c : Dev nD) (t : Fin cfg1.N) (h0 : ¬t.val % 11 = 0) (d) :
    (dat1 V c).before 2 t d = outsAt1 V c (t.val - 1) (Nat.lt_of_le_of_lt (Nat.sub_le _ _) t.isLt) := by
  have hN : t.val < 176 := lt_of_lt_of_eq t.isLt (show cfg1.N = 176 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 176 := lt_of_lt_of_eq t.isLt (show cfg1.N = 176 from N_1)
  by_cases h0 : t.val % 11 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KBRegions.lean ====
/-
  The whole program as a run of segments: six stretches of host operations (the casts and the zero paddings), then the
  two kernel regions. Between two segments every unscoped buffer is held at contents named by a fold from the launch
  memory: a host stretch applies its operations; a region leaves its windows' arrays at what its pipeline's write-backs
  leave and every other buffer as it found it. The run's post reads every unscoped buffer against the last of these.
-/
import proofs.«132609_j42717744726585_2_alg».proof.Proof.KBBody0
import proofs.«132609_j42717744726585_2_alg».proof.Proof.KBFrame1
import proofs.«132609_j42717744726585_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Core `c`'s buffers when region 0 is entered: the launch memory after the six host stretches. -/
abbrev W6 : Dev nD → Valuation τ sig (Elt F) := fun c => Gen.V6 m c
/-- The same read at the TensorCore's references. -/
abbrev Ve0 : (c : Dev nD) → (b : Ref sig .tc) → Buf (Elt F) ((c : Thread nD τ).loc b) := fun c b => W6 m c b
/-- At region 0's exit: its arrays at what the pipeline leaves, every other buffer as entered. -/
def W7 (c : Dev nD) : Valuation τ sig (Elt F) :=
  Pipeline.withArrays spec0 c (W6 m c) fun w => (dat0 (Ve0 m) c).arrAt w cfg0.N
theorem W7_arr (c : Dev nD) (w : Fin cfg0.W) :
    W7 m c (Proc.devRef .tc (Pipeline.arrRef spec0 w)) = (dat0 (Ve0 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
abbrev Ve1 : (c : Dev nD) → (b : Ref sig .tc) → Buf (Elt F) ((c : Thread nD τ).loc b) := fun c b => W7 m c b
theorem hF0 (c : Dev nD) (w : Fin cfg0.W) : (dat0 (Ve0 m) c).arrAt w cfg0.N = Ve1 m c (Pipeline.arrRef spec0 w) :=
  (W7_arr m c w).symm
theorem hrest0 (c : Dev nD) : ∀ b, b ∉ Finset.univ.image (Pipeline.arrRef spec0) → Ve1 m c b = Ve0 m c b :=
  fun b hb => W7_of_ne m c b fun w e => hb (Finset.mem_image.mpr ⟨w, Finset.mem_univ _, e⟩)

/-- At region 1's exit. -/
def W8 (c : Dev nD) : Valuation τ sig (Elt F) :=
  Pipeline.withArrays spec1 c (W7 m c) fun w => (dat1 (Ve1 m) c).arrAt w cfg1.N
theorem W8_arr (c : Dev nD) (w : Fin cfg1.W) :
    W8 m c (Proc.devRef .tc (Pipeline.arrRef spec1 w)) = (dat1 (Ve1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev Ve2 : (c : Dev nD) → (b : Ref sig .tc) → Buf (Elt F) ((c : Thread nD τ).loc b) := fun c b => W8 m c b
theorem hF1 (c : Dev nD) (w : Fin cfg1.W) : (dat1 (Ve1 m) c).arrAt w cfg1.N = Ve2 m c (Pipeline.arrRef spec1 w) :=
  (W8_arr m c w).symm
theorem hrest1 (c : Dev nD) : ∀ b, b ∉ Finset.univ.image (Pipeline.arrRef spec1) → Ve2 m c b = Ve1 m c b :=
  fun b hb => W8_of_ne m c b fun w e => hb (Finset.mem_image.mpr ⟨w, Finset.mem_univ _, e⟩)

/-! ## The arguments end as launched -/

theorem W8_main_arg0 (c : Dev nD) : W8 m c (Proc.devRef .tc main_arg0) = m ((c : Thread nD τ).loc main_arg0) :=
  (W8_of_ne m c main_arg0 (by decide)).trans <| (W7_of_ne m c main_arg0 (by decide)).trans <|
    (Gen.V6_of m c main_arg0 (by decide)).trans <| (Gen.V5_of m c main_arg0 (by decide)).trans <| (Gen.V4_of m c main_arg0 (by decide)).trans <|
    (Gen.V3_of m c main_arg0 (by decide)).trans <| (Gen.V2_of m c main_arg0 (by decide)).trans <| (Gen.V1_of m c main_arg0 (by decide)).trans rfl
theorem W8_main_arg1 (c : Dev nD) : W8 m c (Proc.devRef .tc main_arg1) = m ((c : Thread nD τ).loc main_arg1) :=
  (W8_of_ne m c main_arg1 (by decide)).trans <| (W7_of_ne m c main_arg1 (by decide)).trans <|
    (Gen.V6_of m c main_arg1 (by decide)).trans <| (Gen.V5_of m c main_arg1 (by decide)).trans <| (Gen.V4_of m c main_arg1 (by decide)).trans <|
    (Gen.V3_of m c main_arg1 (by decide)).trans <| (Gen.V2_of m c main_arg1 (by decide)).trans <| (Gen.V1_of m c main_arg1 (by decide)).trans rfl
theorem W8_main_arg2 (c : Dev nD) : W8 m c (Proc.devRef .tc main_arg2) = m ((c : Thread nD τ).loc main_arg2) :=
  (W8_of_ne m c main_arg2 (by decide)).trans <| (W7_of_ne m c main_arg2 (by decide)).trans <|
    (Gen.V6_of m c main_arg2 (by decide)).trans <| (Gen.V5_of m c main_arg2 (by decide)).trans <| (Gen.V4_of m c main_arg2 (by decide)).trans <|
    (Gen.V3_of m c main_arg2 (by decide)).trans <| (Gen.V2_of m c main_arg2 (by decide)).trans <| (Gen.V1_of m c main_arg2 (by decide)).trans rfl
theorem W8_main_arg3 (c : Dev nD) : W8 m c (Proc.devRef .tc main_arg3) = m ((c : Thread nD τ).loc main_arg3) :=
  (W8_of_ne m c main_arg3 (by decide)).trans <| (W7_of_ne m c main_arg3 (by decide)).trans <|
    (Gen.V6_of m c main_arg3 (by decide)).trans <| (Gen.V5_of m c main_arg3 (by decide)).trans <| (Gen.V4_of m c main_arg3 (by decide)).trans <|
    (Gen.V3_of m c main_arg3 (by decide)).trans <| (Gen.V2_of m c main_arg3 (by decide)).trans <| (Gen.V1_of m c main_arg3 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W6`, left at `W7`. The generator register and
    the scoped rest go into the invariant and come back out of it; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .host (hseg hostOps0_5 hostOps0_5_sub Gen.hostOps0_5_fresh (Gen.V5 m)),
    .region (reg0 m),
    .region (reg1 m) ]

set_option backward.isDefEq.respectTransparency.types false in
/-- THE RUN: from any memory with zero counters every weakly fair execution of the program on the TensorCores terminates,
    nothing faulting, and every final state has every unscoped buffer at the last boundary's contents `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame claim's post: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_main m ρ)

end Cert.Kernel.Hand

end
-- ==== Proof.KIBase.lean ====
/-
  The two kernels' branch conditions in closed form over their grids, where the first kernel's output window is idle,
  and the scoped buffers outside each kernel's staging buffers written as owned memrefs.

  Grid 0 is (4, 11, 4) and grid 1 is (4, 4, 11), both walked with the last coordinate fastest: the last coordinate k is
  the reduction step. Kernel 0 resets its two accumulators at k = 0 and writes its output block at k = 3; kernel 1
  resets its output block at k = 0.
-/
import proofs.«132609_j42717744726585_2_alg».proof.Proof.Gen.KernelIdeal.Launch
import proofs.«132609_j42717744726585_2_alg».proof.Proof.Gen.KernelIdeal.Skeleton
import proofs.«132609_j42717744726585_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Kernel 0: the conditions -/

/-- The reset condition of kernel 0 (k = 0), as the body computes it from the grid coordinates. -/
abbrev cond0_0 (i : grid0.Coords) : Prop := (Scalar.cmpi .ne (Scalar.extui (Scalar.cmpi .eq (BitVec.ofNat 32 (i 2).val) 0#32)) 0#32) = 1#1
/-- It holds exactly at the points whose number is a multiple of 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The finishing condition of kernel 0 (k = 3). -/
abbrev cond0_1 (i : grid0.Coords) : Prop := k0_cond2 i = 1#1
/-- It holds exactly at the points whose number is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Kernel 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 3 the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At k = 3 it is live. -/
theorem liveAt0_3 : ∀ t : Fin cfg0.N, cond0_1 (grid0.coords t) → cfg0.idle 3 (grid0.coords t) = false := by decide +kernel

/-! ## Kernel 0: the memrefs the body is called with -/

abbrev VO0_3 : View sig .tc .vmem S1024x1024 .bf16 := (Memref.whole cc0_stg3_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers that are no staging buffer of kernel 0, with the two accumulators as memrefs owned at some
    contents and the others left as they come. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## Kernel 1 -/

/-- The reset condition of kernel 1 (k = 0). -/
abbrev cond1_0 (i : grid1.Coords) : Prop := (Scalar.cmpi .ne (Scalar.extui (Scalar.cmpi .eq (BitVec.ofNat 32 (i 2).val) 0#32)) 0#32) = 1#1
/-- It holds exactly at the points whose number is a multiple of 11. -/
theorem hcond1_0 : ∀ t : Fin cfg1.N, cond1_0 (grid1.coords t) ↔ t.val % 11 = 0 :=
  (by decide +kernel : ∀ t : Fin grid1.N, cond1_0 (grid1.coords t) ↔ t.val % 11 = 0)

abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

end Cert.KernelIdeal.Hand

end
-- ==== Proof.KIRun0A.lean ====
/-
  Kernel 0 at a point with k = 0: both accumulators are overwritten with zero and then with zero plus the point's
  block product; the output buffer is not touched.
-/
import proofs.«132609_j42717744726585_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the two accumulators at a point with k = 0, with the body's triple: the inputs' buffers
    at their blocks and the output's at `xi3` are handed back as found; the accumulators, entered at anything, end with
    their pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x1024 .bf16) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KIRun0B.lean ====
/-
  Kernel 0 at a point with k = 1 or k = 2: each accumulator, entered at what the point before left, is overwritten with
  that plus the point's block product; the output buffer is not touched.
-/
import proofs.«132609_j42717744726585_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the two accumulators at a point with 0 < k < 3, with the body's triple: the inputs'
    buffers at their blocks and the output's at `xi3` are handed back as found; the accumulators, entered at `xs0` and
    `xs1`, end with their pieces written. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x1024 .bf16) (xs0 xs1 : Vec F S1024x1024 .f32) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KIRun0C.lean ====
/-
  Kernel 0 at a point with k = 3: each accumulator is overwritten with what the point before left plus the point's block
  product, and the output buffer with the gated product of the two finished accumulators.
-/
import proofs.«132609_j42717744726585_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output buffer and the two accumulators at a point with k = 3, with the body's
    triple: the inputs' buffers at their blocks are handed back as found; the output's, entered at anything, and the
    accumulators, entered at `xs0` and `xs1`, end with their pieces written. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x1024 .bf16) (xs0 xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, ?_, fun E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KIFrame0.lean ====
/-
  Kernel 0 (the gate and up projections with the gated product) as one pipeline over its grid of 4 x 11 x 4 points.

  What the two accumulators and the output buffer hold after each point is defined by recursion on the point's number:
  at k = 0 the accumulators restart from zero, at the other points they continue from what the point before left, and at
  k = 3 the output buffer receives the gated product. The accumulators' contents ride from point to point in the
  region's invariant. From that: the body's obligation at every point.
-/
import proofs.«132609_j42717744726585_2_alg».proof.Proof.KIRun0A
import proofs.«132609_j42717744726585_2_alg».proof.Proof.KIRun0B
import proofs.«132609_j42717744726585_2_alg».proof.Proof.KIRun0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves -/

/-- The output buffer's contents at a point that does not store into it: a placeholder nothing consults. -/
def junk0_3 : Vec F S1024x1024 .bf16 := VO0_3.read (Elt F) VO0_3.junk

theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) (y : S1024x1024.Idx) :
    ∃ pc ∈ (kernelRun0_A c i arg3 harg3 arg4 harg4 arg5 harg5 arg6 harg6 arg7 harg7 arg8 harg8 hc0 hc1 x0 x1 x2).1, y ∈ pc.1.set :=
  View.cover_of_tiledL (kernelRun0_A c i arg3 harg3 arg4 harg4 arg5 harg5 arg6 harg6 arg7 harg7 arg8 harg8 hc0 hc1 x0 x1 x2).1 S1024x1024.size (by sl_kernel_rfl) y
theorem scover0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) (y : S1024x1024.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1024x1024.size (by sl_kernel_rfl) y
/-- What case A leaves in the first accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) : Vec F S1024x1024 .f32 :=
  VS0_0.read (Elt F) (VS0_0.writes (Elt F) VS0_0.junk (kernelRun0_A c i arg3 harg3 arg4 harg4 arg5 harg5 arg6 harg6 arg7 harg7 arg8 harg8 hc0 hc1 x0 x1 x2).1)
/-- What case A leaves in the second accumulator. -/
def sout0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) : Vec F S1024x1024 .f32 :=
  VS0_1.read (Elt F) (VS0_1.writes (Elt F) VS0_1.junk (kernelRun0_A c i arg3 harg3 arg4 harg4 arg5 harg5 arg6 harg6 arg7 harg7 arg8 harg8 hc0 hc1 x0 x1 x2).2.1)

theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).1, y ∈ pc.1.set :=
  View.cover_of_tiledL (kernelRun0_B c i arg3 harg3 arg4 harg4 arg5 harg5 arg6 harg6 arg7 harg7 arg8 harg8 hc0 hc1 x0 x1 x2 xs0 xs1).1 S1024x1024.size (by sl_kernel_rfl) y
theorem scover0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL (kernelRun0_B c i arg3 harg3 arg4 harg4 arg5 harg5 arg6 harg6 arg7 harg7 arg8 harg8 hc0 hc1 x0 x1 x2 xs0 xs1).2.1 S1024x1024.size (by sl_kernel_rfl) y
/-- What case B leaves in the first accumulator: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 hc1 x0 x1 x2 xs0 xs1).1)
/-- What case B leaves in the second accumulator. -/
def sout0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) : Vec F S1024x1024 .f32 :=
  VS0_1.read (Elt F) (VS0_1.writes (Elt F) VS0_1.junk (kernelRun0_B c i arg3 harg3 arg4 harg4 arg5 harg5 arg6 harg6 arg7 harg7 arg8 harg8 hc0 hc1 x0 x1 x2 xs0 xs1).2.1)

theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).1, y ∈ pc.1.set :=
  View.cover_of_tiledL (kernelRun0_C c i arg3 harg3 arg4 harg4 arg5 harg5 arg6 harg6 arg7 harg7 arg8 harg8 hc0 hc1 x0 x1 x2 xs0 xs1).1 S1024x1024.size (by sl_kernel_rfl) y
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.1, y ∈ pc.1.set :=
  View.cover_of_tiledL (kernelRun0_C c i arg3 harg3 arg4 harg4 arg5 harg5 arg6 harg6 arg7 harg7 arg8 harg8 hc0 hc1 x0 x1 x2 xs0 xs1).2.1 S1024x1024.size (by sl_kernel_rfl) y
theorem scover0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.2.1, y ∈ pc.1.set :=
  View.cover_of_tiledL (kernelRun0_C c i arg3 harg3 arg4 harg4 arg5 harg5 arg6 harg6 arg7 harg7 arg8 harg8 hc0 hc1 x0 x1 x2 xs0 xs1).2.2.1 S1024x1024.size (by sl_kernel_rfl) y
/-- What case C leaves in the output buffer: its pieces read back. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 arg8 harg8 hc0 hc1 x0 x1 x2 xs0 xs1).1)
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 hc0 hc1 x0 x1 x2 xs0 xs1).2.1)
def sout0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) : Vec F S1024x1024 .f32 :=
  VS0_1.read (Elt F) (VS0_1.writes (Elt F) VS0_1.junk (kernelRun0_C c i arg3 harg3 arg4 harg4 arg5 harg5 arg6 harg6 arg7 harg7 arg8 harg8 hc0 hc1 x0 x1 x2 xs0 xs1).2.2.1)

section
variable (V : (c : Dev nD) → (b : Ref sig .tc) → Buf (Elt F) ((c : Thread nD τ).loc b))

/-! ## What the buffers hold after each point -/

/-- After the body at point `n`: the output buffer, the first accumulator, the second accumulator. The case is the one
    the closed forms select at `n`; the accumulators it continues from are what this leaves at `n - 1`. -/
def outsAt0 (c : Dev nD) : (n : ℕ) → n < cfg0.N → Vec F S1024x1024 .bf16 × Vec F S1024x1024 .f32 × Vec F S1024x1024 .f32
  | 0, hn => (junk0_3,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      (junk0_3,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (junk0_3,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a point with k = 0. -/
theorem outsAt0_A (c : Dev nD) (t : Fin cfg0.N) (h0 : t.val % 4 = 0) (h1 : ¬t.val % 4 = 3) :
    outsAt0 V c t.val t.isLt = (junk0_3,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

/-- `outsAt0` at a point with 0 < k < 3. -/
theorem outsAt0_B (c : Dev nD) (t : Fin cfg0.N) (h0 : ¬t.val % 4 = 0) (h1 : ¬t.val % 4 = 3) :
    outsAt0 V c t.val t.isLt = (junk0_3,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 3. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- Before point `n`: at the first point every scoped buffer outside the staging buffers at anything; afterwards the two
    accumulators at what the point before left, the others at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-- The proof data of pipeline 0 on core `c`: the arrays as the region finds them; after the body at a point each
    input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end

end Cert.KernelIdeal.Hand

end
-- ==== Proof.KIBody0.lean ====
/-
  The body obligation of kernel 0 at every grid point: the inputs' buffers hold their blocks; the closed forms say which
  case the point is in; the invariant hands the body the two accumulators (at anything at the very first point, at what
  the point before left afterwards) and takes them back at this point's contents; nothing is owed.
-/
import proofs.«132609_j42717744726585_2_alg».proof.Proof.KIFrame0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 176 := lt_of_lt_of_eq t.isLt (show cfg0.N = 176 from N_0)
  by_cases h0 : t.val % 4 = 0
  · by_cases h1 : t.val % 4 = 3
    · exfalso; omega
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hr⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the scoped rest beside the generator register. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives that back: the accumulators' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 176 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end

end Cert.KernelIdeal.Hand

end
-- ==== Proof.KIRun1A.lean ====
/-
  Kernel 1 at a point with k = 0: the output buffer is overwritten with zero and then with zero plus the point's block
  product.
-/
import proofs.«132609_j42717744726585_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output buffer at a point with k = 0, with the body's triple: the inputs' buffers at
    their blocks are handed back as found; the output's, entered at anything, ends with its pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : cond1_0 i)
    (x0 x1 : Vec F S1024x1024 .bf16) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1__ffn2_kernel i arg3 harg3 arg4 harg4 arg5 harg5) K } := by
  refine ⟨?_, fun E K => ?run⟩
  case run =>
    simp only [cc1__ffn2_kernel_eq_skeleton]; unfold cc1__ffn2_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Hand

end
-- ==== Proof.KIRun1B.lean ====
/-
  Kernel 1 at a point with k > 0: the output buffer, entered at what the point before left, is overwritten with that plus
  the point's block product.
-/
import proofs.«132609_j42717744726585_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output buffer at a point with k > 0, with the body's triple: the inputs' buffers at
    their blocks are handed back as found; the output's, entered at `xo2`, ends with its pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : ¬cond1_0 i)
    (x0 x1 : Vec F S1024x1024 .bf16) (xo2 : Vec F S1024x1024 .f32) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1__ffn2_kernel i arg3 harg3 arg4 harg4 arg5 harg5) K } := by
  refine ⟨?_, fun E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Hand

end
-- ==== Proof.KIFrame1.lean ====
/-
  Kernel 1 (the down projection) as one pipeline over its grid of 4 x 4 x 11 points: its output block stays in its
  staging buffer across the 11 reduction steps, restarted from zero at k = 0 and written back after k = 10. What the
  buffer holds after each point is defined by recursion on the point's number; from that, the body's obligation at
  every point. The region's invariant is the plain one: the scoped rest and the generator register ride through unread.
-/
import proofs.«132609_j42717744726585_2_alg».proof.Proof.KIRun1A
import proofs.«132609_j42717744726585_2_alg».proof.Proof.KIRun1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

theorem cover1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : cond1_0 i) (x0 x1 : Vec F S1024x1024 .bf16) (y : S1024x1024.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S1024x1024.size (by sl_kernel_rfl) y
/-- What the case k = 0 leaves in the output buffer: its pieces read back. -/
def out1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : cond1_0 i) (x0 x1 : Vec F S1024x1024 .bf16) : Vec F S1024x1024 .f32 :=
  VO1_2.read (Elt F) (VO1_2.writes (Elt F) VO1_2.junk (kernelRun1_A c i arg3 harg3 arg4 harg4 arg5 harg5 hc0 x0 x1).1)
theorem cover1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : ¬cond1_0 i) (x0 x1 : Vec F S1024x1024 .bf16) (xo2 : Vec F S1024x1024 .f32) (y : S1024x1024.Idx) :
    ∃ pc ∈ (kernelRun1_B c i arg3 harg3 arg4 harg4 arg5 harg5 hc0 x0 x1 xo2).1, y ∈ pc.1.set :=
  View.cover_of_tiledL (kernelRun1_B c i arg3 harg3 arg4 harg4 arg5 harg5 hc0 x0 x1 xo2).1 S1024x1024.size (by sl_kernel_rfl) y
/-- What the case k > 0 leaves in the output buffer. -/
def out1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : ¬cond1_0 i) (x0 x1 : Vec F S1024x1024 .bf16) (xo2 : Vec F S1024x1024 .f32) : Vec F S1024x1024 .f32 :=
  VO1_2.read (Elt F) (VO1_2.writes (Elt F) VO1_2.junk (kernelRun1_B c i arg3 harg3 arg4 harg4 arg5 harg5 hc0 x0 x1 xo2).1)

section
variable (V : (c : Dev nD) → (b : Ref sig .tc) → Buf (Elt F) ((c : Thread nD τ).loc b))

/-- What the output's staging buffer holds after the body at point `n`. -/
def outsAt1 (c : Dev nD) : (n : ℕ) → n < cfg1.N → Vec F S1024x1024 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 11 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 11 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 11 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with k > 0 the output's staging buffer holds what the body left at the point before: the point is not the
    first and the buffer was not written back between. -/
theorem before1_2_B (c : Dev nD) (t : Fin cfg1.N) (h0 : ¬t.val % 11 = 0) (d) :
    (dat1 V c).before 2 t d = outsAt1 V c (t.val - 1) (Nat.lt_of_le_of_lt (Nat.sub_le _ _) t.isLt) := by
  have hN : t.val < 176 := lt_of_lt_of_eq t.isLt (show cfg1.N = 176 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 176 := lt_of_lt_of_eq t.isLt (show cfg1.N = 176 from N_1)
  by_cases h0 : t.val % 11 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KIRegions.lean ====
/-
  The whole program as a run of segments: six stretches of host operations (the casts and the zero paddings), then the
  two kernel regions. Between two segments every unscoped buffer is held at contents named by a fold from the launch
  memory: a host stretch applies its operations; a region leaves its windows' arrays at what its pipeline's write-backs
  leave and every other buffer as it found it. The run's post reads every unscoped buffer against the last of these.
-/
import proofs.«132609_j42717744726585_2_alg».proof.Proof.KIBody0
import proofs.«132609_j42717744726585_2_alg».proof.Proof.KIFrame1
import proofs.«132609_j42717744726585_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Core `c`'s buffers when region 0 is entered: the launch memory after the six host stretches. -/
abbrev W6 : Dev nD → Valuation τ sig (Elt F) := fun c => Gen.V6 m c
/-- The same read at the TensorCore's references. -/
abbrev Ve0 : (c : Dev nD) → (b : Ref sig .tc) → Buf (Elt F) ((c : Thread nD τ).loc b) := fun c b => W6 m c b
/-- At region 0's exit: its arrays at what the pipeline leaves, every other buffer as entered. -/
def W7 (c : Dev nD) : Valuation τ sig (Elt F) :=
  Pipeline.withArrays spec0 c (W6 m c) fun w => (dat0 (Ve0 m) c).arrAt w cfg0.N
theorem W7_arr (c : Dev nD) (w : Fin cfg0.W) :
    W7 m c (Proc.devRef .tc (Pipeline.arrRef spec0 w)) = (dat0 (Ve0 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
abbrev Ve1 : (c : Dev nD) → (b : Ref sig .tc) → Buf (Elt F) ((c : Thread nD τ).loc b) := fun c b => W7 m c b
theorem hF0 (c : Dev nD) (w : Fin cfg0.W) : (dat0 (Ve0 m) c).arrAt w cfg0.N = Ve1 m c (Pipeline.arrRef spec0 w) :=
  (W7_arr m c w).symm
theorem hrest0 (c : Dev nD) : ∀ b, b ∉ Finset.univ.image (Pipeline.arrRef spec0) → Ve1 m c b = Ve0 m c b :=
  fun b hb => W7_of_ne m c b fun w e => hb (Finset.mem_image.mpr ⟨w, Finset.mem_univ _, e⟩)

/-- At region 1's exit. -/
def W8 (c : Dev nD) : Valuation τ sig (Elt F) :=
  Pipeline.withArrays spec1 c (W7 m c) fun w => (dat1 (Ve1 m) c).arrAt w cfg1.N
theorem W8_arr (c : Dev nD) (w : Fin cfg1.W) :
    W8 m c (Proc.devRef .tc (Pipeline.arrRef spec1 w)) = (dat1 (Ve1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev Ve2 : (c : Dev nD) → (b : Ref sig .tc) → Buf (Elt F) ((c : Thread nD τ).loc b) := fun c b => W8 m c b
theorem hF1 (c : Dev nD) (w : Fin cfg1.W) : (dat1 (Ve1 m) c).arrAt w cfg1.N = Ve2 m c (Pipeline.arrRef spec1 w) :=
  (W8_arr m c w).symm
theorem hrest1 (c : Dev nD) : ∀ b, b ∉ Finset.univ.image (Pipeline.arrRef spec1) → Ve2 m c b = Ve1 m c b :=
  fun b hb => W8_of_ne m c b fun w e => hb (Finset.mem_image.mpr ⟨w, Finset.mem_univ _, e⟩)

/-! ## The arguments end as launched -/

theorem W8_main_arg0 (c : Dev nD) : W8 m c (Proc.devRef .tc main_arg0) = m ((c : Thread nD τ).loc main_arg0) :=
  (W8_of_ne m c main_arg0 (by decide)).trans <| (W7_of_ne m c main_arg0 (by decide)).trans <|
    (Gen.V6_of m c main_arg0 (by decide)).trans <| (Gen.V5_of m c main_arg0 (by decide)).trans <| (Gen.V4_of m c main_arg0 (by decide)).trans <|
    (Gen.V3_of m c main_arg0 (by decide)).trans <| (Gen.V2_of m c main_arg0 (by decide)).trans <| (Gen.V1_of m c main_arg0 (by decide)).trans rfl
theorem W8_main_arg1 (c : Dev nD) : W8 m c (Proc.devRef .tc main_arg1) = m ((c : Thread nD τ).loc main_arg1) :=
  (W8_of_ne m c main_arg1 (by decide)).trans <| (W7_of_ne m c main_arg1 (by decide)).trans <|
    (Gen.V6_of m c main_arg1 (by decide)).trans <| (Gen.V5_of m c main_arg1 (by decide)).trans <| (Gen.V4_of m c main_arg1 (by decide)).trans <|
    (Gen.V3_of m c main_arg1 (by decide)).trans <| (Gen.V2_of m c main_arg1 (by decide)).trans <| (Gen.V1_of m c main_arg1 (by decide)).trans rfl
theorem W8_main_arg2 (c : Dev nD) : W8 m c (Proc.devRef .tc main_arg2) = m ((c : Thread nD τ).loc main_arg2) :=
  (W8_of_ne m c main_arg2 (by decide)).trans <| (W7_of_ne m c main_arg2 (by decide)).trans <|
    (Gen.V6_of m c main_arg2 (by decide)).trans <| (Gen.V5_of m c main_arg2 (by decide)).trans <| (Gen.V4_of m c main_arg2 (by decide)).trans <|
    (Gen.V3_of m c main_arg2 (by decide)).trans <| (Gen.V2_of m c main_arg2 (by decide)).trans <| (Gen.V1_of m c main_arg2 (by decide)).trans rfl
theorem W8_main_arg3 (c : Dev nD) : W8 m c (Proc.devRef .tc main_arg3) = m ((c : Thread nD τ).loc main_arg3) :=
  (W8_of_ne m c main_arg3 (by decide)).trans <| (W7_of_ne m c main_arg3 (by decide)).trans <|
    (Gen.V6_of m c main_arg3 (by decide)).trans <| (Gen.V5_of m c main_arg3 (by decide)).trans <| (Gen.V4_of m c main_arg3 (by decide)).trans <|
    (Gen.V3_of m c main_arg3 (by decide)).trans <| (Gen.V2_of m c main_arg3 (by decide)).trans <| (Gen.V1_of m c main_arg3 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W6`, left at `W7`. The generator register and
    the scoped rest go into the invariant and come back out of it; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .host (hseg hostOps0_5 hostOps0_5_sub Gen.hostOps0_5_fresh (Gen.V5 m)),
    .region (reg0 m),
    .region (reg1 m) ]

set_option backward.isDefEq.respectTransparency.types false in
/-- THE RUN: from any memory with zero counters every weakly fair execution of the program on the TensorCores terminates,
    nothing faulting, and every final state has every unscoped buffer at the last boundary's contents `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame claim's post: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_main m ρ)

end Cert.KernelIdeal.Hand

end
-- ==== Proof.KIPayload0.lean ====
/-
  What kernel 0's body leaves in its two accumulators and its output buffer, read back as values: at k = 0 an
  accumulator holds the zero block plus the point's block product; at k > 0 what the point before left plus the block
  product; at k = 3 the output buffer holds the gated product of the two finished accumulators.
-/
import proofs.«132609_j42717744726585_2_alg».proof.Proof.KIFrame0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout0_A_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) :
    sout0_A_0 c i arg3 harg3 arg4 harg4 arg5 harg5 arg6 harg6 arg7 harg7 arg8 harg8 hc0 hc1 x0 x1 x2 = k0_pay3 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg7.read_unread, harg8.read_unread, View.ld_unit_zero (S := S1024x1024) hz2]

theorem sout0_A_1_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 x1 x2 : Vec F S1024x1024 .bf16) :
    sout0_A_1 c i arg3 harg3 arg4 harg4 arg5 harg5 arg6 harg6 arg7 harg7 arg8 harg8 hc0 hc1 x0 x1 x2 = k0_pay4 (k0_pay2 (F := F)) x0 x2 := by
  unfold sout0_A_1
  rw [View.read_writes_eq_canon _ _ _ (scover0_A_1 c i arg3 harg3 arg4 harg4 arg5 harg5 arg6 harg6 arg7 harg7 arg8 harg8 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg7.read_unread, harg8.read_unread, View.ld_unit_zero (S := S1024x1024) hz2]

theorem sout0_B_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) :
    sout0_B_0 c i arg3 harg3 arg4 harg4 arg5 harg5 arg6 harg6 arg7 harg7 arg8 harg8 hc0 hc1 x0 x1 x2 xs0 xs1 = k0_pay3 xs0 x0 x1 := by
  unfold sout0_B_0
  rw [View.read_writes_eq_canon _ _ _ (scover0_B_0 c i arg3 harg3 arg4 harg4 arg5 harg5 arg6 harg6 arg7 harg7 arg8 harg8 hc0 hc1 x0 x1 x2 xs0 xs1)]
  unfold kernelRun0_B
  dsimp only
  rw [View.canon_unit_zero hz2]
  simp only [View.readAt_eq_ld, harg3.read_unread, harg4.read_unread, harg5.read_unread, harg7.read_unread, harg8.read_unread, View.ld_unit_zero (S := S1024x1024) hz2]

theorem sout0_B_1_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 x1 x2 : Vec F S1024x1024 .bf16) (xs0 xs1 : Vec F S1024x1024 .f32) :
    sout0_B_1 c i arg3 harg3 arg4 harg4 arg5 harg5 arg6 harg6 arg7 harg7 arg8 harg8 hc0 hc1 x0 x1 x2 xs0 xs1 = k0_pay4 xs1 x0 x2 := by
  unfold sout0_B_1
  rw [View.read_writes_eq_canon _ _ _ (scover0_B_1 c i arg3 harg3 arg4 harg4 arg5 harg5 arg6 harg6 arg7 harg7 arg8 harg8 hc0 hc1 x0 x1 x2 xs0 xs1)]
  unfold kernelRun0_B
  dsimp only
  rw [View.canon_unit_zero hz2]
  simp only [View.readAt_eq_ld, harg3.read_unread, harg4.read_unread, harg5.read_unread, harg7.read_unread, harg8.read_unread, View.ld_unit_zero (S := S1024x1024) hz2]

theorem sout0_C_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) :
    sout0_C_0 c i arg3 harg3 arg4 harg4 arg5 harg5 arg6 harg6 arg7 harg7 arg8 harg8 hc0 hc1 x0 x1 x2 xs0 xs1 = k0_pay3 xs0 x0 x1 := by
  unfold sout0_C_0
  rw [View.read_writes_eq_canon _ _ _ (scover0_C_0 c i arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg3.read_unread, harg4.read_unread, harg5.read_unread, harg7.read_unread, harg8.read_unread, View.ld_unit_zero (S := S1024x1024) hz2]

theorem sout0_C_1_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) :
    sout0_C_1 c i arg3 harg3 arg4 harg4 arg5 harg5 arg6 harg6 arg7 harg7 arg8 harg8 hc0 hc1 x0 x1 x2 xs0 xs1 = k0_pay4 xs1 x0 x2 := by
  unfold sout0_C_1
  rw [View.read_writes_eq_canon _ _ _ (scover0_C_1 c i arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg3.read_unread, harg4.read_unread, harg5.read_unread, harg7.read_unread, harg8.read_unread, View.ld_unit_zero (S := S1024x1024) hz2]

theorem out0_C_3_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 x1 x2 : Vec F S1024x1024 .bf16) (xs0 xs1 : Vec F S1024x1024 .f32) :
    out0_C_3 c i arg3 harg3 arg4 harg4 arg5 harg5 arg6 harg6 arg7 harg7 arg8 harg8 hc0 hc1 x0 x1 x2 xs0 xs1 = k0_pay5 (k0_pay3 xs0 x0 x1) (k0_pay4 xs1 x0 x2) := by
  unfold out0_C_3
  rw [View.read_writes_eq_canon _ _ _ (cover0_C_3 c i arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readCov_unit_zero (S := S1024x1024) _ hz2, View.readAt_eq_ld, harg3.read_unread, harg4.read_unread, harg5.read_unread, harg7.read_unread, harg8.read_unread, View.ld_unit_zero (S := S1024x1024) hz2]

end Cert.KernelIdeal.Hand

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.Spec.lean ====
import Idealize.ShloMosaic.PureOps.Ideal
import Idealize.ShloMosaic.Lib.ValueIdx
import Mathlib.Algebra.BigOperators.Fin

/-!
The specification of the gated feed-forward product, for a hidden axis of any width, and the fact
that padding the hidden axis with zero columns (of the two input projections) and zero rows (of the
output projection) does not change it.
-/

namespace Cert.Spec
open Idealize.ShloMosaic Idealize.ShloMosaic.ValueIdx

/-- The gated product of a gate value and an up value. -/
noncomputable def act (g u : EReal) : EReal := (g * Ideal.logistic g) * u

/-- The hidden activation at row p, hidden unit j, for a hidden axis of any width n. -/
noncomputable def hidden {n : ℕ} (x : (⟨2, ![4096, 4096]⟩ : Shape).Idx → EReal)
    (wg wu : (⟨2, ![4096, n]⟩ : Shape).Idx → EReal) (p : Fin 4096) (j : Fin n) : EReal :=
  act (∑ q : Fin 4096, x (ix2 p q) * wg (ix2 q j)) (∑ q : Fin 4096, x (ix2 p q) * wu (ix2 q j))

/-- The specification at (p, e), for a hidden axis of any width n. -/
noncomputable def outAt {n : ℕ} (x : (⟨2, ![4096, 4096]⟩ : Shape).Idx → EReal)
    (w1 : (⟨2, ![4096, n]⟩ : Shape).Idx → EReal) (w2 : (⟨2, ![n, 4096]⟩ : Shape).Idx → EReal)
    (w3 : (⟨2, ![4096, n]⟩ : Shape).Idx → EReal) (p e : Fin 4096) : EReal :=
  ∑ k : Fin n, hidden x w1 w3 p k * w2 (ix2 k e)

/-- The specification as a whole array. -/
noncomputable def outFn {n : ℕ} (x : (⟨2, ![4096, 4096]⟩ : Shape).Idx → EReal)
    (w1 : (⟨2, ![4096, n]⟩ : Shape).Idx → EReal) (w2 : (⟨2, ![n, 4096]⟩ : Shape).Idx → EReal)
    (w3 : (⟨2, ![4096, n]⟩ : Shape).Idx → EReal) : (⟨2, ![4096, 4096]⟩ : Shape).Idx → EReal :=
  fun i => outAt x w1 w2 w3 (i 0) (i 1)

theorem outFn_ix2 {n : ℕ} (x : (⟨2, ![4096, 4096]⟩ : Shape).Idx → EReal)
    (w1 : (⟨2, ![4096, n]⟩ : Shape).Idx → EReal) (w2 : (⟨2, ![n, 4096]⟩ : Shape).Idx → EReal)
    (w3 : (⟨2, ![4096, n]⟩ : Shape).Idx → EReal) (p e : Fin 4096) :
    outFn (n := n) x w1 w2 w3 (ix2 p e) = outAt x w1 w2 w3 p e := rfl

/-- Zero padding of the hidden axis changes nothing: a padded row of w2p is zero, and anything times
zero is zero on the extended reals (no finiteness needed). -/
theorem padded_eq (x : (⟨2, ![4096, 4096]⟩ : Shape).Idx → EReal)
    (w1 w3 : (⟨2, ![4096, 11008]⟩ : Shape).Idx → EReal) (w2 : (⟨2, ![11008, 4096]⟩ : Shape).Idx → EReal)
    (w1p w3p : (⟨2, ![4096, 11264]⟩ : Shape).Idx → EReal) (w2p : (⟨2, ![11264, 4096]⟩ : Shape).Idx → EReal)
    (h1 : ∀ (q : Fin 4096) (j : Fin 11264),
      w1p (ix2 q j) = if h : j.val < 11008 then w1 (ix2 q ⟨j.val, h⟩) else 0)
    (h3 : ∀ (q : Fin 4096) (j : Fin 11264),
      w3p (ix2 q j) = if h : j.val < 11008 then w3 (ix2 q ⟨j.val, h⟩) else 0)
    (h2 : ∀ (k : Fin 11264) (e : Fin 4096),
      w2p (ix2 k e) = if h : k.val < 11008 then w2 (ix2 ⟨k.val, h⟩ e) else 0)
    (p e : Fin 4096) : outAt x w1p w2p w3p p e = outAt x w1 w2 w3 p e := by
  unfold outAt
  -- split the padded hidden axis as 11008 + 256
  have hsplit : ∀ f : Fin (11008 + 256) → EReal,
      ∑ k : Fin (11008 + 256), f k
        = ∑ k : Fin 11008, f (Fin.castAdd 256 k) + ∑ k : Fin 256, f (Fin.natAdd 11008 k) :=
    fun f => Fin.sum_univ_add f
  rw [show (∑ k : Fin 11264, hidden x w1p w3p p k * w2p (ix2 k e))
        = ∑ k : Fin (11008 + 256), hidden x w1p w3p p k * w2p (ix2 k e) from rfl, hsplit]
  -- the tail: every padded row of w2p is zero
  have htail : ∑ k : Fin 256,
      hidden x w1p w3p p (Fin.natAdd 11008 k) * w2p (ix2 (Fin.natAdd 11008 k) e) = 0 := by
    refine Finset.sum_eq_zero fun k _ => ?_
    have hk : ¬ (Fin.natAdd 11008 k : Fin (11008 + 256)).val < 11008 := by
      simp only [Fin.coe_natAdd]; omega
    rw [h2 (Fin.natAdd 11008 k) e, dif_neg hk, mul_zero]
  rw [htail, add_zero]
  -- the head: the padded arrays agree with the unpadded ones
  refine Finset.sum_congr rfl fun k _ => ?_
  have hk : (Fin.castAdd 256 k : Fin (11008 + 256)).val < 11008 := by
    simp only [Fin.coe_castAdd]; exact k.isLt
  have hk' : (⟨(Fin.castAdd 256 k : Fin (11008 + 256)).val, hk⟩ : Fin 11008) = k := by
    ext; simp only [Fin.coe_castAdd]
  have e1 : ∀ q : Fin 4096, w1p (ix2 q (Fin.castAdd 256 k)) = w1 (ix2 q k) := fun q => by
    rw [h1 q (Fin.castAdd 256 k), dif_pos hk, hk']
  have e3 : ∀ q : Fin 4096, w3p (ix2 q (Fin.castAdd 256 k)) = w3 (ix2 q k) := fun q => by
    rw [h3 q (Fin.castAdd 256 k), dif_pos hk, hk']
  have e2 : w2p (ix2 (Fin.castAdd 256 k) e) = w2 (ix2 k e) := by
    rw [h2 (Fin.castAdd 256 k) e, dif_pos hk, hk']
  unfold hidden
  rw [e2]
  simp only [e1, e3]

end Cert.Spec
-- ==== Proof.KIPayIdeal.lean ====
/-
  The kernels' arithmetic at the ideal instance, index by index: an accumulation step adds to the entry the dot product
  of a row of the left block with a column of the right block; the reset stores zero; the finishing step stores the
  gated product of the gate accumulator and the up accumulator.
-/
import proofs.«132609_j42717744726585_2_alg».proof.Proof.Gen.KernelIdeal.Skeleton
import proofs.«132609_j42717744726585_2_alg».proof.Proof.LibColsMatmul
import proofs.«132609_j42717744726585_2_alg».proof.Proof.Spec
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Cert.KernelIdeal Cert.KernelIdeal.Gen Cert.ColsMatmul

/-- The kernels' matrix product of two 1024 x 1024 blocks into a zero accumulator, at (r, l). -/
theorem mm_apply (x w : FVec Ideal S1024x1024 .bf16) (r l : Fin 1024) :
    matmul dot_S1024x1024_S1024x1024_S1024x1024_1_0_0_1_n_n none x w (constant S1024x1024 .f32 0x00000000#32) (ix2 r l)
      = ∑ q : Fin 1024, x (ix2 r q) * w (ix2 q l) :=
  cols_matmul (a := 1024) (n := 1024) (b := 1024) Facts₀.dot_S1024x1024_S1024x1024_S1024x1024_1_0_0_1_n_n_wf
    dot_S1024x1024_S1024x1024_S1024x1024_1_0_0_1_n_n rfl x w r l

theorem k0_pay1_apply (j : S1024x1024.Idx) : k0_pay1 (F := Ideal) j = 0 := by
  unfold k0_pay1; simp only [shapeCast_self]; exact Ideal.ofBits_zero_f32
theorem k0_pay2_apply (j : S1024x1024.Idx) : k0_pay2 (F := Ideal) j = 0 := by
  unfold k0_pay2; simp only [shapeCast_self]; exact Ideal.ofBits_zero_f32
theorem k1_pay1_apply (j : S1024x1024.Idx) : k1_pay1 (F := Ideal) j = 0 := by
  unfold k1_pay1; exact Ideal.ofBits_zero_f32

theorem k0_pay3_apply (v3 : Vec Ideal S1024x1024 .f32) (v4 v6 : Vec Ideal S1024x1024 .bf16) (r l : Fin 1024) :
    k0_pay3 v3 v4 v6 (ix2 r l) = v3 (ix2 r l) + ∑ q : Fin 1024, v4 (ix2 r q) * v6 (ix2 q l) := by
  unfold k0_pay3; simp only [shapeCast_self]
  exact congrArg (v3 (ix2 r l) + ·) (mm_apply v4 v6 r l)
theorem k0_pay4_apply (v3 : Vec Ideal S1024x1024 .f32) (v4 v6 : Vec Ideal S1024x1024 .bf16) (r l : Fin 1024) :
    k0_pay4 v3 v4 v6 (ix2 r l) = v3 (ix2 r l) + ∑ q : Fin 1024, v4 (ix2 r q) * v6 (ix2 q l) := by
  unfold k0_pay4; simp only [shapeCast_self]
  exact congrArg (v3 (ix2 r l) + ·) (mm_apply v4 v6 r l)
theorem k1_pay2_apply (v3 : Vec Ideal S1024x1024 .f32) (v4 v6 : Vec Ideal S1024x1024 .bf16) (r l : Fin 1024) :
    k1_pay2 v3 v4 v6 (ix2 r l) = v3 (ix2 r l) + ∑ q : Fin 1024, v4 (ix2 r q) * v6 (ix2 q l) := by
  unfold k1_pay2; simp only [shapeCast_self]
  exact congrArg (v3 (ix2 r l) + ·) (mm_apply v4 v6 r l)

/-- The finishing step: the gated product, entry by entry (the change of format is the identity). -/
theorem k0_pay5_apply (g u : Vec Ideal S1024x1024 .f32) (j : S1024x1024.Idx) :
    k0_pay5 g u j = Cert.Spec.act (g j) (u j) := rfl

end Cert.KernelIdeal.Hand

end
-- ==== Proof.LibChunkedSum.lean ====
/-
  A long sum cut into equal chunks.

  In any commutative monoid (no subtraction, no finiteness: the extended reals qualify) a sum over the first a*b
  naturals is the sum, over the a chunks s, of the sum over the b positions j inside chunk s of the term at s*b + j.
  Only associativity and commutativity of addition are used, so the regrouping holds whatever the summands are.
-/
import Mathlib.Algebra.BigOperators.Fin
import Mathlib.Algebra.BigOperators.Intervals

open Finset

namespace Cert.ChunkedSum

variable {β : Type*} [AddCommMonoid β]

/-- A sum over `range (a*b)` is the sum over the chunk number of the sums over the positions inside a chunk. -/
theorem sum_range_chunks (a b : ℕ) (f : ℕ → β) :
    ∑ h ∈ range (a * b), f h = ∑ s ∈ range a, ∑ j ∈ range b, f (s * b + j) := by
  induction a with
  | zero => simp
  | succ a ih => rw [Nat.succ_mul, Finset.sum_range_add, ih, Finset.sum_range_succ]

/-- The same with the long sum and the inner sums over `Fin`. -/
theorem sum_fin_chunks (a b : ℕ) (f : ℕ → β) :
    ∑ h : Fin (a * b), f h.val = ∑ s ∈ range a, ∑ j : Fin b, f (s * b + j.val) := by
  rw [Fin.sum_univ_eq_sum_range (fun h => f h) (a * b), sum_range_chunks]
  refine Finset.sum_congr rfl fun s _ => ?_
  rw [Fin.sum_univ_eq_sum_range (fun j => f (s * b + j)) b]

/-- A function on `Fin n` extended by zero to every natural. -/
def ext0 {n : ℕ} (g : Fin n → β) (k : ℕ) : β := if h : k < n then g ⟨k, h⟩ else 0

theorem ext0_val {n : ℕ} (g : Fin n → β) (h : Fin n) : ext0 g h.val = g h := by
  unfold ext0; rw [dif_pos h.isLt]

/-- A sum over `Fin (a*b)` of any function is the sum over the chunks of the chunk sums of its extension. -/
theorem sum_chunks_ext0 (a b : ℕ) (g : Fin (a * b) → β) :
    ∑ h : Fin (a * b), g h = ∑ s ∈ range a, ∑ j : Fin b, ext0 g (s * b + j.val) := by
  rw [← sum_fin_chunks a b (ext0 g)]
  exact Finset.sum_congr rfl fun h _ => (ext0_val g h).symm

end Cert.ChunkedSum
-- ==== Proof.Accum.lean ====
/-
  Matrix products accumulated block by block.

  A 2-d array of extended reals is read at natural-number coordinates, zero outside its extents. For two such arrays A
  and B the dot product of row P of A with column J of B over the first n*1024 positions is the sum of its n blocks of
  1024 positions; only associativity and commutativity of addition are used, so nothing needs to be finite.
-/
import Idealize.ShloMosaic.PureOps.Ideal.Laws
import Idealize.ShloMosaic.Lib.ValueIdx
import proofs.«132609_j42717744726585_2_alg».proof.Proof.LibChunkedSum

noncomputable section

namespace Cert.Accum

open Idealize.ShloMosaic Idealize.ShloMosaic.ValueIdx Finset

/-- A 2-d array read at natural coordinates, zero outside. -/
def ext2 {a b : ℕ} (f : (⟨2, ![a, b]⟩ : Shape).Idx → EReal) (P Q : ℕ) : EReal :=
  if h : P < a ∧ Q < b then f (ix2 ⟨P, h.1⟩ ⟨Q, h.2⟩) else 0

theorem ext2_val {a b : ℕ} (f : (⟨2, ![a, b]⟩ : Shape).Idx → EReal) (p : Fin a) (q : Fin b) :
    ext2 f p.val q.val = f (ix2 p q) := by
  unfold ext2; rw [dif_pos ⟨p.isLt, q.isLt⟩]

theorem ext2_of_lt {a b : ℕ} (f : (⟨2, ![a, b]⟩ : Shape).Idx → EReal) (P Q : ℕ) (hP : P < a) (hQ : Q < b) :
    ext2 f P Q = f (ix2 ⟨P, hP⟩ ⟨Q, hQ⟩) := by
  unfold ext2; rw [dif_pos ⟨hP, hQ⟩]

/-- Block kb of the dot product of row P of A with column J of B. -/
def blockDot (A B : ℕ → ℕ → EReal) (P J kb : ℕ) : EReal :=
  ∑ q : Fin 1024, A P (kb * 1024 + q.val) * B (kb * 1024 + q.val) J

/-- The first n blocks. -/
def partialDot (A B : ℕ → ℕ → EReal) (P J n : ℕ) : EReal := ∑ kb ∈ range n, blockDot A B P J kb

theorem partialDot_one (A B : ℕ → ℕ → EReal) (P J : ℕ) : partialDot A B P J 1 = blockDot A B P J 0 := by
  unfold partialDot; rw [Finset.sum_range_one]

theorem partialDot_succ (A B : ℕ → ℕ → EReal) (P J n : ℕ) :
    partialDot A B P J (n + 1) = partialDot A B P J n + blockDot A B P J n := by
  unfold partialDot; rw [Finset.sum_range_succ]

/-- All n blocks together are the dot product over the first n*1024 positions. -/
theorem partialDot_full (A B : ℕ → ℕ → EReal) (P J n : ℕ) :
    partialDot A B P J n = ∑ h : Fin (n * 1024), A P h.val * B h.val J :=
  (Cert.ChunkedSum.sum_fin_chunks n 1024 (fun h => A P h * B h J)).symm

end Cert.Accum

end
-- ==== Proof.KIValue0.lean ====
/-
  Kernel 0 at the ideal instance: what its result array — the hidden activations over the padded hidden axis — holds
  after the run.

  Point t of the grid (4, 11, 4) has coordinates i = t / 44, j = t / 4 mod 11, k = t mod 4; it reads block (i, k) of x
  and block (k, j) of each padded projection matrix, and works on block (i, j) of the result. After the point each
  accumulator holds, at (r, l), the first k + 1 blocks of the dot product of row i*1024 + r of x with column j*1024 + l
  of its matrix (induction on the point); at k = 3 all 4 blocks — the whole dot product over the 4096 positions — are
  in, and the output buffer receives the gated product of the two. Every entry of the result lies in such a block.
-/
import proofs.«132609_j42717744726585_2_alg».proof.Proof.KIPayload0
import proofs.«132609_j42717744726585_2_alg».proof.Proof.KIPayIdeal
import proofs.«132609_j42717744726585_2_alg».proof.Proof.Accum
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Accum

variable (V : (c : Dev nD) → (b : Ref sig .tc) → Buf (Elt Ideal) ((c : Thread nD τ).loc b))

/-- x and the two padded projection matrices as region 0 finds them. -/
abbrev A0 (c : Dev nD) : S4096x4096.Idx → EReal := V c main_v0
abbrev A2 (c : Dev nD) : S4096x11264.Idx → EReal := V c main_v2
abbrev A4 (c : Dev nD) : S4096x11264.Idx → EReal := V c main_v4

/-- The block indices of the four windows at point t, decided over the grid. -/
theorem idx0 : ∀ t : Fin cfg0.N, win0_0.index t (0 : Fin 2) = t.val / 44 ∧ win0_0.index t (1 : Fin 2) = t.val % 4
    ∧ win0_1.index t (0 : Fin 2) = t.val % 4 ∧ win0_1.index t (1 : Fin 2) = t.val / 4 % 11
    ∧ win0_2.index t (0 : Fin 2) = t.val % 4 ∧ win0_2.index t (1 : Fin 2) = t.val / 4 % 11
    ∧ win0_3.index t (0 : Fin 2) = t.val / 44 ∧ win0_3.index t (1 : Fin 2) = t.val / 4 % 11 :=
  (by decide +kernel : ∀ t : Fin grid0.N, _)

theorem iblk0_0_apply (c : Dev nD) (t : Fin cfg0.N) (r l : Fin 1024) :
    (iblk0 V c 0 t : Vec Ideal S1024x1024 .bf16) (ix2 r l)
      = ext2 (A0 V c) (t.val / 44 * 1024 + r.val) (t.val % 4 * 1024 + l.val) := by
  obtain ⟨e0, e1, -, -, -, -, -, -⟩ := idx0 t
  have hN : t.val < 176 := lt_of_lt_of_eq t.isLt (show cfg0.N = 176 from N_0)
  have hr := r.isLt; have hl := l.isLt
  rw [ext2_of_lt _ _ _ (by omega) (by omega)]
  unfold iblk0
  rw [View.read_apply]
  show V c main_v0 _ = V c main_v0 _
  refine congrArg (V c main_v0) ?_
  funext a; apply Fin.ext
  match a with
  | ⟨0, _⟩ => show win0_0.index t (0 : Fin 2) * 1024 + 1 * r.val = t.val / 44 * 1024 + r.val; rw [e0]; omega
  | ⟨1, _⟩ => show win0_0.index t (1 : Fin 2) * 1024 + 1 * l.val = t.val % 4 * 1024 + l.val; rw [e1]; omega

theorem iblk0_1_apply (c : Dev nD) (t : Fin cfg0.N) (r l : Fin 1024) :
    (iblk0 V c 1 t : Vec Ideal S1024x1024 .bf16) (ix2 r l)
      = ext2 (A2 V c) (t.val % 4 * 1024 + r.val) (t.val / 4 % 11 * 1024 + l.val) := by
  obtain ⟨-, -, e0, e1, -, -, -, -⟩ := idx0 t
  have hN : t.val < 176 := lt_of_lt_of_eq t.isLt (show cfg0.N = 176 from N_0)
  have hr := r.isLt; have hl := l.isLt
  rw [ext2_of_lt _ _ _ (by omega) (by omega)]
  unfold iblk0
  rw [View.read_apply]
  show V c main_v2 _ = V c main_v2 _
  refine congrArg (V c main_v2) ?_
  funext a; apply Fin.ext
  match a with
  | ⟨0, _⟩ => show win0_1.index t (0 : Fin 2) * 1024 + 1 * r.val = t.val % 4 * 1024 + r.val; rw [e0]; omega
  | ⟨1, _⟩ => show win0_1.index t (1 : Fin 2) * 1024 + 1 * l.val = t.val / 4 % 11 * 1024 + l.val; rw [e1]; omega

theorem iblk0_2_apply (c : Dev nD) (t : Fin cfg0.N) (r l : Fin 1024) :
    (iblk0 V c 2 t : Vec Ideal S1024x1024 .bf16) (ix2 r l)
      = ext2 (A4 V c) (t.val % 4 * 1024 + r.val) (t.val / 4 % 11 * 1024 + l.val) := by
  obtain ⟨-, -, -, -, e0, e1, -, -⟩ := idx0 t
  have hN : t.val < 176 := lt_of_lt_of_eq t.isLt (show cfg0.N = 176 from N_0)
  have hr := r.isLt; have hl := l.isLt
  rw [ext2_of_lt _ _ _ (by omega) (by omega)]
  unfold iblk0
  rw [View.read_apply]
  show V c main_v4 _ = V c main_v4 _
  refine congrArg (V c main_v4) ?_
  funext a; apply Fin.ext
  match a with
  | ⟨0, _⟩ => show win0_2.index t (0 : Fin 2) * 1024 + 1 * r.val = t.val % 4 * 1024 + r.val; rw [e0]; omega
  | ⟨1, _⟩ => show win0_2.index t (1 : Fin 2) * 1024 + 1 * l.val = t.val / 4 % 11 * 1024 + l.val; rw [e1]; omega

/-- One accumulation step of the gate accumulator at point t. -/
theorem step0g (c : Dev nD) (t : Fin cfg0.N) (xs : Vec Ideal S1024x1024 .f32) (r l : Fin 1024) :
    k0_pay3 xs (iblk0 V c 0 t) (iblk0 V c 1 t) (ix2 r l)
      = xs (ix2 r l) + blockDot (ext2 (A0 V c)) (ext2 (A2 V c)) (t.val / 44 * 1024 + r.val) (t.val / 4 % 11 * 1024 + l.val) (t.val % 4) := by
  refine (k0_pay3_apply xs (iblk0 V c 0 t) (iblk0 V c 1 t) r l).trans ?_
  refine congrArg (xs (ix2 r l) + ·) ?_
  unfold blockDot
  refine Finset.sum_congr rfl fun q _ => ?_
  rw [iblk0_0_apply V c t r q, iblk0_1_apply V c t q l]

/-- One accumulation step of the up accumulator at point t. -/
theorem step0u (c : Dev nD) (t : Fin cfg0.N) (xs : Vec Ideal S1024x1024 .f32) (r l : Fin 1024) :
    k0_pay4 xs (iblk0 V c 0 t) (iblk0 V c 2 t) (ix2 r l)
      = xs (ix2 r l) + blockDot (ext2 (A0 V c)) (ext2 (A4 V c)) (t.val / 44 * 1024 + r.val) (t.val / 4 % 11 * 1024 + l.val) (t.val % 4) := by
  refine (k0_pay4_apply xs (iblk0 V c 0 t) (iblk0 V c 2 t) r l).trans ?_
  refine congrArg (xs (ix2 r l) + ·) ?_
  unfold blockDot
  refine Finset.sum_congr rfl fun q _ => ?_
  rw [iblk0_0_apply V c t r q, iblk0_2_apply V c t q l]

/-- What the two accumulators hold after point n, in terms of what they held after the point before: by the case. -/
theorem acc0_zero (c : Dev nD) (t : Fin cfg0.N) (h0 : t.val % 4 = 0) (r l : Fin 1024) :
    (outsAt0 V c t.val t.isLt).2.1 (ix2 r l) = blockDot (ext2 (A0 V c)) (ext2 (A2 V c)) (t.val / 44 * 1024 + r.val) (t.val / 4 % 11 * 1024 + l.val) (t.val % 4)
    ∧ (outsAt0 V c t.val t.isLt).2.2 (ix2 r l) = blockDot (ext2 (A0 V c)) (ext2 (A4 V c)) (t.val / 44 * 1024 + r.val) (t.val / 4 % 11 * 1024 + l.val) (t.val % 4) := by
  have h1 : ¬t.val % 4 = 3 := by omega
  rw [outsAt0_A V c t h0 h1]
  dsimp only
  rw [sout0_A_0_eq, sout0_A_1_eq]
  constructor
  · refine (step0g V c t (k0_pay1 (F := Ideal)) r l).trans ?_
    rw [k0_pay1_apply, zero_add]
  · refine (step0u V c t (k0_pay2 (F := Ideal)) r l).trans ?_
    rw [k0_pay2_apply, zero_add]

theorem acc0_pos (c : Dev nD) (t : Fin cfg0.N) (h0 : ¬t.val % 4 = 0) (r l : Fin 1024) :
    (outsAt0 V c t.val t.isLt).2.1 (ix2 r l) = (outsAt0 V c (t.val - 1) (Nat.lt_of_le_of_lt (Nat.sub_le _ _) t.isLt)).2.1 (ix2 r l)
        + blockDot (ext2 (A0 V c)) (ext2 (A2 V c)) (t.val / 44 * 1024 + r.val) (t.val / 4 % 11 * 1024 + l.val) (t.val % 4)
    ∧ (outsAt0 V c t.val t.isLt).2.2 (ix2 r l) = (outsAt0 V c (t.val - 1) (Nat.lt_of_le_of_lt (Nat.sub_le _ _) t.isLt)).2.2 (ix2 r l)
        + blockDot (ext2 (A0 V c)) (ext2 (A4 V c)) (t.val / 44 * 1024 + r.val) (t.val / 4 % 11 * 1024 + l.val) (t.val % 4) := by
  by_cases h1 : t.val % 4 = 3
  · rw [outsAt0_C V c t h0 h1]
    dsimp only
    rw [sout0_C_0_eq, sout0_C_1_eq]
    exact ⟨step0g V c t _ r l, step0u V c t _ r l⟩
  · rw [outsAt0_B V c t h0 h1]
    dsimp only
    rw [sout0_B_0_eq, sout0_B_1_eq]
    exact ⟨step0g V c t _ r l, step0u V c t _ r l⟩

/-- At k = 3 the output buffer holds the gated product of the two accumulators. -/
theorem out0_act (c : Dev nD) (t : Fin cfg0.N) (h1 : t.val % 4 = 3) (j : S1024x1024.Idx) :
    (outsAt0 V c t.val t.isLt).1 j = Cert.Spec.act ((outsAt0 V c t.val t.isLt).2.1 j) ((outsAt0 V c t.val t.isLt).2.2 j) := by
  have h0 : ¬t.val % 4 = 0 := by omega
  rw [outsAt0_C V c t h0 h1]
  dsimp only
  rw [out0_C_3_eq, sout0_C_0_eq, sout0_C_1_eq]
  exact k0_pay5_apply _ _ j

/-- After point n each accumulator holds the first (n mod 4) + 1 blocks of its dot product. -/
theorem outsAt0_apply (c : Dev nD) : ∀ (n : ℕ) (h : n < cfg0.N) (r l : Fin 1024),
    (outsAt0 V c n h).2.1 (ix2 r l) = partialDot (ext2 (A0 V c)) (ext2 (A2 V c)) (n / 44 * 1024 + r.val) (n / 4 % 11 * 1024 + l.val) (n % 4 + 1)
    ∧ (outsAt0 V c n h).2.2 (ix2 r l) = partialDot (ext2 (A0 V c)) (ext2 (A4 V c)) (n / 44 * 1024 + r.val) (n / 4 % 11 * 1024 + l.val) (n % 4 + 1) := by
  intro n
  induction n with
  | zero =>
    intro h r l
    obtain ⟨e1, e2⟩ := acc0_zero V c ⟨0, h⟩ rfl r l
    exact ⟨e1.trans (partialDot_one _ _ _ _).symm, e2.trans (partialDot_one _ _ _ _).symm⟩
  | succ n ih =>
    intro h r l
    have hN : n + 1 < 176 := lt_of_lt_of_eq h (show cfg0.N = 176 from N_0)
    by_cases h0 : (n + 1) % 4 = 0
    · obtain ⟨e1, e2⟩ := acc0_zero V c ⟨n + 1, h⟩ h0 r l
      have hk : (⟨n + 1, h⟩ : Fin cfg0.N).val % 4 = 0 := h0
      rw [hk] at e1 e2
      refine ⟨e1.trans ?_, e2.trans ?_⟩
      · show _ = partialDot _ _ _ _ ((n + 1) % 4 + 1); rw [h0]; exact (partialDot_one _ _ _ _).symm
      · show _ = partialDot _ _ _ _ ((n + 1) % 4 + 1); rw [h0]; exact (partialDot_one _ _ _ _).symm
    · obtain ⟨e1, e2⟩ := acc0_pos V c ⟨n + 1, h⟩ h0 r l
      obtain ⟨i1, i2⟩ := ih (Nat.lt_of_succ_lt h) r l
      have q1 : (n + 1) / 44 = n / 44 := by omega
      have q2 : (n + 1) / 4 = n / 4 := by omega
      have q3 : (n + 1) % 4 = n % 4 + 1 := by omega
      refine ⟨e1.trans ?_, e2.trans ?_⟩
      · show (outsAt0 V c n _).2.1 (ix2 r l) + blockDot _ _ ((n + 1) / 44 * 1024 + r.val) ((n + 1) / 4 % 11 * 1024 + l.val) ((n + 1) % 4)
          = partialDot _ _ ((n + 1) / 44 * 1024 + r.val) ((n + 1) / 4 % 11 * 1024 + l.val) ((n + 1) % 4 + 1)
        rw [i1, q1, q2, q3]; exact (partialDot_succ _ _ _ _ _).symm
      · show (outsAt0 V c n _).2.2 (ix2 r l) + blockDot _ _ ((n + 1) / 44 * 1024 + r.val) ((n + 1) / 4 % 11 * 1024 + l.val) ((n + 1) % 4)
          = partialDot _ _ ((n + 1) / 44 * 1024 + r.val) ((n + 1) / 4 % 11 * 1024 + l.val) ((n + 1) % 4 + 1)
        rw [i2, q1, q2, q3]; exact (partialDot_succ _ _ _ _ _).symm

/-- The result array: the hidden activations over the padded hidden axis. -/
def G0 (a0 : S4096x4096.Idx → EReal) (a2 a4 : S4096x11264.Idx → EReal) : S4096x11264.Idx → EReal :=
  fun i => Cert.Spec.hidden a0 a2 a4 (i 0) (i 1)

theorem G0_ix2 (a0 : S4096x4096.Idx → EReal) (a2 a4 : S4096x11264.Idx → EReal) (p : Fin 4096) (j : Fin 11264) :
    G0 a0 a2 a4 (ix2 p j) = Cert.Spec.hidden a0 a2 a4 p j := rfl

/-- A whole dot product over the 4096 positions from the arrays read at natural coordinates. -/
theorem fullDot0 {b : ℕ} (a0 : S4096x4096.Idx → EReal) (w : (⟨2, ![4096, b]⟩ : Shape).Idx → EReal) (p : Fin 4096) (j : Fin b) :
    partialDot (ext2 a0) (ext2 w) p.val j.val 4 = ∑ q : Fin 4096, a0 (ix2 p q) * w (ix2 q j) := by
  rw [partialDot_full]
  show ∑ h : Fin 4096, _ = _
  refine Finset.sum_congr rfl fun k _ => ?_
  rw [ext2_of_lt _ _ _ p.isLt k.isLt, ext2_of_lt _ _ _ k.isLt j.isLt]

/-- What a flushing point writes back is its block of `G0`. -/
theorem flushed0_eq (c : Dev nD) (t : Fin cfg0.N) (hf : (cfg0.win 3).flush t = true) :
    (dat0 V c).flushed 3 t = ((cfg0.win 3).blk t).view.read (Elt Ideal) (G0 (A0 V c) (A2 V c) (A4 V c)) := by
  have hN : t.val < 176 := lt_of_lt_of_eq t.isLt (show cfg0.N = 176 from N_0)
  have h3 : t.val % 4 = 3 := (flush0_3 t).mp hf
  obtain ⟨-, -, -, -, -, -, e0, e1⟩ := idx0 t
  show (cfg0.win 3).cut (grid0.coords t) ((dat0 V c).after 3 t) = _
  rw [after0_3]
  funext j
  obtain ⟨r, l, rfl⟩ : ∃ (r : Fin 1024) (l : Fin 1024), j = ix2 r l := ⟨j 0, j 1, eq_ix2 j⟩
  have hr := r.isLt; have hl := l.isLt
  show (outsAt0 V c t.val t.isLt).1 (ix2 r l) = G0 (A0 V c) (A2 V c) (A4 V c) (((cfg0.win 3).blk t).view.emb (ix2 r l))
  have hemb : ((cfg0.win 3).blk t).view.emb (ix2 r l)
      = ix2 (⟨t.val / 44 * 1024 + r.val, by omega⟩ : Fin 4096) (⟨t.val / 4 % 11 * 1024 + l.val, by omega⟩ : Fin 11264) := by
    funext a; apply Fin.ext
    match a with
    | ⟨0, _⟩ => show win0_3.index t (0 : Fin 2) * 1024 + 1 * r.val = t.val / 44 * 1024 + r.val; rw [e0]; omega
    | ⟨1, _⟩ => show win0_3.index t (1 : Fin 2) * 1024 + 1 * l.val = t.val / 4 % 11 * 1024 + l.val; rw [e1]; omega
  obtain ⟨g1, g2⟩ := outsAt0_apply V c t.val t.isLt r l
  rw [hemb, G0_ix2, out0_act V c t h3 (ix2 r l), g1, g2, h3]
  unfold Cert.Spec.hidden
  rw [← fullDot0 (A0 V c) (A2 V c) ⟨t.val / 44 * 1024 + r.val, by omega⟩ ⟨t.val / 4 % 11 * 1024 + l.val, by omega⟩,
    ← fullDot0 (A0 V c) (A4 V c) ⟨t.val / 44 * 1024 + r.val, by omega⟩ ⟨t.val / 4 % 11 * 1024 + l.val, by omega⟩]

theorem mem_blk0 (t : Fin cfg0.N) (i : S4096x11264.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- The array after the run. -/
theorem final0 (c : Dev nD) : (dat0 V c).arrAt 3 cfg0.N = G0 (A0 V c) (A2 V c) (A4 V c) :=
  (dat0 V c).arrAt_eq_of_cover 3 (G0 (A0 V c) (A2 V c) (A4 V c)) (flushed0_eq V c) fun i => by
    have h0 : (i 0).val < 4096 := (i 0).isLt
    have h1 : (i 1).val < 11264 := (i 1).isLt
    have hN : cfg0.N = 176 := N_0
    let t : Fin cfg0.N := ⟨((i 0).val / 1024 * 11 + (i 1).val / 1024) * 4 + 3, by rw [hN]; omega⟩
    have ht : t.val = ((i 0).val / 1024 * 11 + (i 1).val / 1024) * 4 + 3 := rfl
    obtain ⟨-, -, -, -, -, -, e0, e1⟩ := idx0 t
    refine ⟨t, (flush0_3 t).mpr (by rw [ht]; omega), ?_⟩
    rw [mem_blk0]
    intro a
    match a with
    | ⟨0, _⟩ => show win0_3.index t (0 : Fin 2) * 1024 ≤ (i 0).val ∧ (i 0).val < win0_3.index t (0 : Fin 2) * 1024 + 1024; rw [e0, ht]; omega
    | ⟨1, _⟩ => show win0_3.index t (1 : Fin 2) * 1024 ≤ (i 1).val ∧ (i 1).val < win0_3.index t (1 : Fin 2) * 1024 + 1024; rw [e1, ht]; omega

end Cert.KernelIdeal.Hand

end
-- ==== Proof.KIPayload1.lean ====
/-
  What kernel 1's body leaves in its output buffer, read back as values: at k = 0 the zero block plus the point's block
  product, at k > 0 what the point before left plus the point's block product.
-/
import proofs.«132609_j42717744726585_2_alg».proof.Proof.KIFrame1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem out1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : ¬cond1_0 i) (x0 x1 : Vec F S1024x1024 .bf16) (xo2 : Vec F S1024x1024 .f32) :
    out1_B_2 c i arg3 harg3 arg4 harg4 arg5 harg5 hc0 x0 x1 xo2 = k1_pay2 xo2 x0 x1 := by
  unfold out1_B_2
  rw [View.read_writes_eq_canon _ _ _ (cover1_B_2 c i arg3 harg3 arg4 harg4 arg5 harg5 hc0 x0 x1 xo2)]
  unfold kernelRun1_B
  dsimp only
  rw [View.canon_unit_zero hz2]
  simp only [View.readAt_eq_ld, harg3.read_unread, harg4.read_unread, harg5.read_unread, View.ld_unit_zero (S := S1024x1024) hz2]

theorem out1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (hc0 : cond1_0 i) (x0 x1 : Vec F S1024x1024 .bf16) :
    out1_A_2 c i arg3 harg3 arg4 harg4 arg5 harg5 hc0 x0 x1 = k1_pay2 (k1_pay1 (F := F)) x0 x1 := by
  unfold out1_A_2
  rw [View.read_writes_eq_canon _ _ _ (cover1_A_2 c i arg3 harg3 arg4 harg4 arg5 harg5 hc0 x0 x1)]
  unfold kernelRun1_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

end Cert.KernelIdeal.Hand

end
-- ==== Proof.KIValue1.lean ====
/-
  Kernel 1 at the ideal instance: what its result array holds after the run.

  Point t of the grid (4, 4, 11) has coordinates i = t / 44, j = t / 11 mod 4, k = t mod 11; it reads block (i, k) of the
  hidden activations and block (k, j) of the padded down-projection weights, and works on block (i, j) of the result.
  After the point the staging buffer holds, at (r, l), the first k + 1 blocks of the dot product of row i*1024 + r with
  column j*1024 + l (induction on the point); the block is written back after k = 10, when all 11 blocks — the whole
  dot product over the padded hidden axis — are in. Every entry of the result array lies in exactly such a block.
-/
import proofs.«132609_j42717744726585_2_alg».proof.Proof.KIPayload1
import proofs.«132609_j42717744726585_2_alg».proof.Proof.KIPayIdeal
import proofs.«132609_j42717744726585_2_alg».proof.Proof.Accum
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Accum

variable (V : (c : Dev nD) → (b : Ref sig .tc) → Buf (Elt Ideal) ((c : Thread nD τ).loc b))

/-- The hidden activations and the padded down-projection weights as region 1 finds them. -/
abbrev A7 (c : Dev nD) : S4096x11264.Idx → EReal := V c main_v7
abbrev A6 (c : Dev nD) : S11264x4096.Idx → EReal := V c main_v6

/-- The block indices of the three windows at point t, decided over the grid. -/
theorem idx1 : ∀ t : Fin cfg1.N, win1_0.index t (0 : Fin 2) = t.val / 44 ∧ win1_0.index t (1 : Fin 2) = t.val % 11
    ∧ win1_1.index t (0 : Fin 2) = t.val % 11 ∧ win1_1.index t (1 : Fin 2) = t.val / 11 % 4
    ∧ win1_2.index t (0 : Fin 2) = t.val / 44 ∧ win1_2.index t (1 : Fin 2) = t.val / 11 % 4 :=
  (by decide +kernel : ∀ t : Fin grid1.N, _)

/-- Block (i, k) of the hidden activations at (r, l). -/
theorem iblk1_0_apply (c : Dev nD) (t : Fin cfg1.N) (r l : Fin 1024) :
    (iblk1 V c 0 t : Vec Ideal S1024x1024 .bf16) (ix2 r l)
      = ext2 (A7 V c) (t.val / 44 * 1024 + r.val) (t.val % 11 * 1024 + l.val) := by
  obtain ⟨e0, e1, -, -, -, -⟩ := idx1 t
  have hN : t.val < 176 := lt_of_lt_of_eq t.isLt (show cfg1.N = 176 from N_1)
  have hr := r.isLt; have hl := l.isLt
  rw [ext2_of_lt _ _ _ (by omega) (by omega)]
  unfold iblk1
  rw [View.read_apply]
  show V c main_v7 _ = V c main_v7 _
  refine congrArg (V c main_v7) ?_
  funext a; apply Fin.ext
  match a with
  | ⟨0, _⟩ => show win1_0.index t (0 : Fin 2) * 1024 + 1 * r.val = t.val / 44 * 1024 + r.val; rw [e0]; omega
  | ⟨1, _⟩ => show win1_0.index t (1 : Fin 2) * 1024 + 1 * l.val = t.val % 11 * 1024 + l.val; rw [e1]; omega

/-- Block (k, j) of the padded weights at (r, l). -/
theorem iblk1_1_apply (c : Dev nD) (t : Fin cfg1.N) (r l : Fin 1024) :
    (iblk1 V c 1 t : Vec Ideal S1024x1024 .bf16) (ix2 r l)
      = ext2 (A6 V c) (t.val % 11 * 1024 + r.val) (t.val / 11 % 4 * 1024 + l.val) := by
  obtain ⟨-, -, e0, e1, -, -⟩ := idx1 t
  have hN : t.val < 176 := lt_of_lt_of_eq t.isLt (show cfg1.N = 176 from N_1)
  have hr := r.isLt; have hl := l.isLt
  rw [ext2_of_lt _ _ _ (by omega) (by omega)]
  unfold iblk1
  rw [View.read_apply]
  show V c main_v6 _ = V c main_v6 _
  refine congrArg (V c main_v6) ?_
  funext a; apply Fin.ext
  match a with
  | ⟨0, _⟩ => show win1_1.index t (0 : Fin 2) * 1024 + 1 * r.val = t.val % 11 * 1024 + r.val; rw [e0]; omega
  | ⟨1, _⟩ => show win1_1.index t (1 : Fin 2) * 1024 + 1 * l.val = t.val / 11 % 4 * 1024 + l.val; rw [e1]; omega

/-- One accumulation step at point t: the entry plus block k of the dot product. -/
theorem step1 (c : Dev nD) (t : Fin cfg1.N) (xo : Vec Ideal S1024x1024 .f32) (r l : Fin 1024) :
    k1_pay2 xo (iblk1 V c 0 t) (iblk1 V c 1 t) (ix2 r l)
      = xo (ix2 r l) + blockDot (ext2 (A7 V c)) (ext2 (A6 V c)) (t.val / 44 * 1024 + r.val) (t.val / 11 % 4 * 1024 + l.val) (t.val % 11) := by
  refine (k1_pay2_apply xo (iblk1 V c 0 t) (iblk1 V c 1 t) r l).trans ?_
  refine congrArg (xo (ix2 r l) + ·) ?_
  unfold blockDot
  refine Finset.sum_congr rfl fun q _ => ?_
  rw [iblk1_0_apply V c t r q, iblk1_1_apply V c t q l]

/-- After point n the staging buffer holds the first (n mod 11) + 1 blocks of the dot product. -/
theorem outsAt1_apply (c : Dev nD) : ∀ (n : ℕ) (h : n < cfg1.N) (r l : Fin 1024),
    outsAt1 V c n h (ix2 r l)
      = partialDot (ext2 (A7 V c)) (ext2 (A6 V c)) (n / 44 * 1024 + r.val) (n / 11 % 4 * 1024 + l.val) (n % 11 + 1) := by
  intro n
  induction n with
  | zero =>
    intro h r l
    rw [outsAt1_A V c ⟨0, h⟩ rfl, out1_A_eq]
    refine (step1 V c ⟨0, h⟩ (k1_pay1 (F := Ideal)) r l).trans ?_
    rw [k1_pay1_apply, zero_add]
    exact (partialDot_one _ _ _ _).symm
  | succ n ih =>
    intro h r l
    have hN : n + 1 < 176 := lt_of_lt_of_eq h (show cfg1.N = 176 from N_1)
    by_cases h0 : (n + 1) % 11 = 0
    · rw [outsAt1_A V c ⟨n + 1, h⟩ h0, out1_A_eq]
      refine (step1 V c ⟨n + 1, h⟩ (k1_pay1 (F := Ideal)) r l).trans ?_
      rw [k1_pay1_apply, zero_add]
      show blockDot _ _ _ _ ((n + 1) % 11) = partialDot _ _ _ _ ((n + 1) % 11 + 1)
      rw [h0]
      exact (partialDot_one _ _ _ _).symm
    · rw [outsAt1_B V c ⟨n + 1, h⟩ h0, out1_B_eq]
      refine (step1 V c ⟨n + 1, h⟩ (outsAt1 V c n (Nat.lt_of_succ_lt h)) r l).trans ?_
      rw [ih (Nat.lt_of_succ_lt h) r l]
      show partialDot _ _ (n / 44 * 1024 + r.val) (n / 11 % 4 * 1024 + l.val) (n % 11 + 1)
          + blockDot _ _ ((n + 1) / 44 * 1024 + r.val) ((n + 1) / 11 % 4 * 1024 + l.val) ((n + 1) % 11)
        = partialDot _ _ ((n + 1) / 44 * 1024 + r.val) ((n + 1) / 11 % 4 * 1024 + l.val) ((n + 1) % 11 + 1)
      have e1 : (n + 1) / 44 = n / 44 := by omega
      have e2 : (n + 1) / 11 = n / 11 := by omega
      have e3 : (n + 1) % 11 = n % 11 + 1 := by omega
      rw [e1, e2, e3]
      exact (partialDot_succ _ _ _ _ _).symm

/-- The result array: the whole dot product over the padded hidden axis. -/
def G1 (a7 : S4096x11264.Idx → EReal) (a6 : S11264x4096.Idx → EReal) : S4096x4096.Idx → EReal :=
  fun i => ∑ k : Fin 11264, a7 (ix2 (i 0) k) * a6 (ix2 k (i 1))

theorem G1_ix2 (a7 : S4096x11264.Idx → EReal) (a6 : S11264x4096.Idx → EReal) (p e : Fin 4096) :
    G1 a7 a6 (ix2 p e) = ∑ k : Fin 11264, a7 (ix2 p k) * a6 (ix2 k e) := rfl

/-- What a flushing point writes back is its block of `G1`. -/
theorem flushed1_eq (c : Dev nD) (t : Fin cfg1.N) (hf : (cfg1.win 2).flush t = true) :
    (dat1 V c).flushed 2 t = ((cfg1.win 2).blk t).view.read (Elt Ideal) (G1 (A7 V c) (A6 V c)) := by
  have hN : t.val < 176 := lt_of_lt_of_eq t.isLt (show cfg1.N = 176 from N_1)
  have h10 : t.val % 11 = 10 := (flush1_2 t).mp hf
  obtain ⟨-, -, -, -, e0, e1⟩ := idx1 t
  show (cfg1.win 2).cut (grid1.coords t) ((dat1 V c).after 2 t) = _
  rw [after1_2]
  funext j
  obtain ⟨r, l, rfl⟩ : ∃ (r : Fin 1024) (l : Fin 1024), j = ix2 r l := ⟨j 0, j 1, eq_ix2 j⟩
  have hr := r.isLt; have hl := l.isLt
  show outsAt1 V c t.val t.isLt (ix2 r l) = G1 (A7 V c) (A6 V c) (((cfg1.win 2).blk t).view.emb (ix2 r l))
  have hemb : ((cfg1.win 2).blk t).view.emb (ix2 r l)
      = ix2 (⟨t.val / 44 * 1024 + r.val, by omega⟩ : Fin 4096) (⟨t.val / 11 % 4 * 1024 + l.val, by omega⟩ : Fin 4096) := by
    funext a; apply Fin.ext
    match a with
    | ⟨0, _⟩ => show win1_2.index t (0 : Fin 2) * 1024 + 1 * r.val = t.val / 44 * 1024 + r.val; rw [e0]; omega
    | ⟨1, _⟩ => show win1_2.index t (1 : Fin 2) * 1024 + 1 * l.val = t.val / 11 % 4 * 1024 + l.val; rw [e1]; omega
  rw [hemb, G1_ix2, outsAt1_apply V c t.val t.isLt r l, h10, partialDot_full]
  show ∑ h : Fin 11264, _ = _
  refine Finset.sum_congr rfl fun k _ => ?_
  rw [ext2_of_lt _ _ _ (by omega) k.isLt, ext2_of_lt _ _ _ k.isLt (by omega)]

theorem mem_blk1 (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v8).slice (win1_2.rect t)).set ↔ _
  rw [View.set_slice_whole, Rect.mem_set_unit]
  exact Iff.rfl

/-- The array after the run. -/
theorem final1 (c : Dev nD) : (dat1 V c).arrAt 2 cfg1.N = G1 (A7 V c) (A6 V c) :=
  (dat1 V c).arrAt_eq_of_cover 2 (G1 (A7 V c) (A6 V c)) (flushed1_eq V c) fun i => by
    have h0 : (i 0).val < 4096 := (i 0).isLt
    have h1 : (i 1).val < 4096 := (i 1).isLt
    have hN : cfg1.N = 176 := N_1
    let t : Fin cfg1.N := ⟨((i 0).val / 1024 * 4 + (i 1).val / 1024) * 11 + 10, by rw [hN]; omega⟩
    have ht : t.val = ((i 0).val / 1024 * 4 + (i 1).val / 1024) * 11 + 10 := rfl
    obtain ⟨-, -, -, -, e0, e1⟩ := idx1 t
    refine ⟨t, (flush1_2 t).mpr (by rw [ht]; omega), ?_⟩
    rw [mem_blk1]
    intro a
    match a with
    | ⟨0, _⟩ => show win1_2.index t (0 : Fin 2) * 1024 ≤ (i 0).val ∧ (i 0).val < win1_2.index t (0 : Fin 2) * 1024 + 1024; rw [e0, ht]; omega
    | ⟨1, _⟩ => show win1_2.index t (1 : Fin 2) * 1024 ≤ (i 1).val ∧ (i 1).val < win1_2.index t (1 : Fin 2) * 1024 + 1024; rw [e1, ht]; omega

end Cert.KernelIdeal.Hand

end
-- ==== Proof.HostValue.lean ====
import proofs.«132609_j42717744726585_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.KernelVsHost

/-!
What the host operations before the two kernel calls leave in the arrays the calls read: the
activations unchanged (a change of format is the identity on the extended reals), and each weight
matrix extended along the hidden axis from 11008 to 11264 by zeros.
-/

noncomputable section

namespace Cert.KernelIdeal.HostValue

open Idealize.ShloMosaic Idealize.ShloMosaic.TcCoe Idealize.ShloMosaic.ValueIdx Cert.KernelIdeal Cert.KernelIdeal.Gen
open Idealize.ShloMosaic.StableHlo

/-- The padding value, the integer zero converted to a float, is the extended real zero. -/
theorem padValue_eq (i : S_.Idx) : (sitofp (F := Ideal) .bf16 (constantI S_ 32 0#32) : S_.Idx → EReal) i = 0 := by
  show ((((0#32 : BitVec 32).toInt : ℤ) : ℝ) : EReal) = 0
  simp

/-- Padding 256 zero columns on the right: entry (q, j) is the operand's while j < 11008, zero after. -/
theorem padCols_apply (x : S4096x11008.Idx → EReal) (q : Fin 4096) (j : Fin 11264) :
    pad S4096x11264 ![0, 0] ![0, 256] ![0, 0] x (sitofp (F := Ideal) .bf16 (constantI S_ 32 0#32))
        Facts₀.pads_S4096x11008_S4096x11264_000_02560 Facts₀.h_S_ (ix2 q j)
      = if h : j.val < 11008 then x (ix2 q ⟨j.val, h⟩) else 0 := by
  by_cases h : j.val < 11008
  · rw [dif_pos h]
    exact pad_apply_of_inside _ _ _ x _ _ _ (ix2 q j) (ix2 q ⟨j.val, h⟩) (by
      intro a
      match a with
      | ⟨0, _⟩ => show q.val = 0 + q.val * (0 + 1); omega
      | ⟨1, _⟩ => show j.val = 0 + j.val * (0 + 1); omega)
  · rw [dif_neg h]
    refine (pad_apply_of_not_inside _ _ _ x _ _ _ (ix2 q j) (1 : Fin 2) (by
      intro hin
      have e : (j.val - 0) / (0 + 1) < 11008 := hin.2.2
      omega)).trans (padValue_eq _)

/-- Padding 256 zero rows at the bottom: entry (k, e) is the operand's while k < 11008, zero after. -/
theorem padRows_apply (x : S11008x4096.Idx → EReal) (k : Fin 11264) (e : Fin 4096) :
    pad S11264x4096 ![0, 0] ![256, 0] ![0, 0] x (sitofp (F := Ideal) .bf16 (constantI S_ 32 0#32))
        Facts₀.pads_S11008x4096_S11264x4096_02560_000 Facts₀.h_S_ (ix2 k e)
      = if h : k.val < 11008 then x (ix2 ⟨k.val, h⟩ e) else 0 := by
  by_cases h : k.val < 11008
  · rw [dif_pos h]
    exact pad_apply_of_inside _ _ _ x _ _ _ (ix2 k e) (ix2 ⟨k.val, h⟩ e) (by
      intro a
      match a with
      | ⟨0, _⟩ => show k.val = 0 + k.val * (0 + 1); omega
      | ⟨1, _⟩ => show e.val = 0 + e.val * (0 + 1); omega)
  · rw [dif_neg h]
    refine (pad_apply_of_not_inside _ _ _ x _ _ _ (ix2 k e) (0 : Fin 2) (by
      intro hin
      have e' : (k.val - 0) / (0 + 1) < 11008 := hin.2.2
      omega)).trans (padValue_eq _)

variable (m : (ℓ : Loc nD τ sig) → Buf (Elt Ideal) ℓ) (c : Dev nD)

/-- The activations the first call reads are the first argument. -/
theorem v0_eq : (V6 m c main_v0 : S4096x4096.Idx → EReal) = m ((c : Thread nD τ).loc main_arg0) := by
  rw [V6_of m c main_v0 (by decide), V5_of m c main_v0 (by decide), V4_of m c main_v0 (by decide),
    V3_of m c main_v0 (by decide), V2_of m c main_v0 (by decide)]
  show StableHlo.after hostOps0 (fun b => m (c, b)) (Proc.devRef .tc main_v0) = _
  after_results
  rfl

/-- The gate weights the first call reads: the second argument padded by zero columns. -/
theorem v2_term : (V6 m c main_v2 : S4096x11264.Idx → EReal)
    = pad S4096x11264 ![0, 0] ![0, 256] ![0, 0] (m ((c : Thread nD τ).loc main_arg1) : S4096x11008.Idx → EReal)
        (sitofp (F := Ideal) .bf16 (constantI S_ 32 0#32)) Facts₀.pads_S4096x11008_S4096x11264_000_02560 Facts₀.h_S_ := by
  rw [V6_of m c main_v2 (by decide), V5_of m c main_v2 (by decide), V4_of m c main_v2 (by decide),
    V3_of m c main_v2 (by decide)]
  dsimp only [V2, V1, V0]
  after_results
  rfl

/-- The up weights the first call reads: the fourth argument padded by zero columns. -/
theorem v4_term : (V6 m c main_v4 : S4096x11264.Idx → EReal)
    = pad S4096x11264 ![0, 0] ![0, 256] ![0, 0] (m ((c : Thread nD τ).loc main_arg3) : S4096x11008.Idx → EReal)
        (sitofp (F := Ideal) .bf16 (constantI S_ 32 0#32)) Facts₀.pads_S4096x11008_S4096x11264_000_02560 Facts₀.h_S_ := by
  rw [V6_of m c main_v4 (by decide), V5_of m c main_v4 (by decide)]
  dsimp only [V4, V3, V2, V1, V0]
  after_results
  rfl

/-- The down weights the second call reads: the third argument padded by zero rows. -/
theorem v6_term : (V6 m c main_v6 : S11264x4096.Idx → EReal)
    = pad S11264x4096 ![0, 0] ![256, 0] ![0, 0] (m ((c : Thread nD τ).loc main_arg2) : S11008x4096.Idx → EReal)
        (sitofp (F := Ideal) .bf16 (constantI S_ 32 0#32)) Facts₀.pads_S11008x4096_S11264x4096_02560_000 Facts₀.h_S_ := by
  dsimp only [V6, V5, V4, V3, V2, V1, V0]
  after_results
  rfl

theorem v2_apply (q : Fin 4096) (j : Fin 11264) : (V6 m c main_v2 : S4096x11264.Idx → EReal) (ix2 q j)
    = if h : j.val < 11008 then (m ((c : Thread nD τ).loc main_arg1) : S4096x11008.Idx → EReal) (ix2 q ⟨j.val, h⟩) else (0 : EReal) := by
  rw [v2_term, padCols_apply]

theorem v4_apply (q : Fin 4096) (j : Fin 11264) : (V6 m c main_v4 : S4096x11264.Idx → EReal) (ix2 q j)
    = if h : j.val < 11008 then (m ((c : Thread nD τ).loc main_arg3) : S4096x11008.Idx → EReal) (ix2 q ⟨j.val, h⟩) else (0 : EReal) := by
  rw [v4_term, padCols_apply]

theorem v6_apply (k : Fin 11264) (e : Fin 4096) : (V6 m c main_v6 : S11264x4096.Idx → EReal) (ix2 k e)
    = if h : k.val < 11008 then (m ((c : Thread nD τ).loc main_arg2) : S11008x4096.Idx → EReal) (ix2 ⟨k.val, h⟩ e) else (0 : EReal) := by
  rw [v6_term, padRows_apply]

end Cert.KernelIdeal.HostValue

end
-- ==== Proof.KIValue.lean ====
/-
  The kernel program's run at the ideal instance, read: its result array ends at the feed-forward specification of the
  four argument arrays, and the arguments end as launched.

  Region 1 leaves in the result array the dot products of the hidden activations with the padded down-projection
  weights over the padded hidden axis; the hidden activations are what region 0 left; the padded arrays are the
  arguments with zero columns (or rows) appended; and a padded position contributes a product with zero.
-/
import proofs.«132609_j42717744726585_2_alg».proof.Proof.KIRegions
import proofs.«132609_j42717744726585_2_alg».proof.Proof.KIValue0
import proofs.«132609_j42717744726585_2_alg».proof.Proof.KIValue1
import proofs.«132609_j42717744726585_2_alg».proof.Proof.HostValue
import proofs.«132609_j42717744726585_2_alg».proof.Proof.Spec

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Region 1 finds the hidden activations as region 0 left them, -/
theorem entry1_v7 (c : Dev nD) :
    A7 (Ve1 m) c = G0 (A0 (Ve0 m) c) (A2 (Ve0 m) c) (A4 (Ve0 m) c) :=
  (W7_arr m c 3).trans (final0 (Ve0 m) c)

/-- and the padded down-projection weights as the host left them. -/
theorem entry1_v6 (c : Dev nD) : A6 (Ve1 m) c = (Gen.V6 m c main_v6 : S11264x4096.Idx → EReal) :=
  W7_of_ne m c main_v6 (by decide)

/-- The result array after the run is the specification of the arguments. -/
theorem result_eq (c : Dev nD) :
    W8 m c (Proc.devRef .tc main_v8)
      = Cert.Spec.outFn (m ((c : Thread nD τ).loc main_arg0)) (m ((c : Thread nD τ).loc main_arg1)) (m ((c : Thread nD τ).loc main_arg2)) (m ((c : Thread nD τ).loc main_arg3)) := by
  refine (W8_arr m c 2).trans ?_
  rw [final1 (Ve1 m) c]
  funext i
  obtain ⟨p, e, rfl⟩ : ∃ (p : Fin 4096) (e : Fin 4096), i = ix2 p e := ⟨i 0, i 1, eq_ix2 i⟩
  rw [Cert.Spec.outFn_ix2, G1_ix2, entry1_v7 m c, entry1_v6 m c]
  simp only [G0_ix2]
  have hx : A0 (Ve0 m) c = m ((c : Thread nD τ).loc main_arg0) := Cert.KernelIdeal.HostValue.v0_eq m c
  rw [hx]
  exact Cert.Spec.padded_eq (m ((c : Thread nD τ).loc main_arg0)) (m ((c : Thread nD τ).loc main_arg1)) (m ((c : Thread nD τ).loc main_arg3))
    (m ((c : Thread nD τ).loc main_arg2)) (A2 (Ve0 m) c) (A4 (Ve0 m) c) (Gen.V6 m c main_v6)
    (Cert.KernelIdeal.HostValue.v2_apply m c) (Cert.KernelIdeal.HostValue.v4_apply m c) (Cert.KernelIdeal.HostValue.v6_apply m c) p e

/-- The run, read: the result array at the specification, the four arguments unchanged. -/
theorem value_run : θ_run defs (onTc (τ := τ) (main (F := Ideal))) ⟨m, fun _ => 0, ρ⟩ (fun r => ∀ c : Dev nD,
      r.2.mem ((c.tc : Thread nD τ).loc main_v8)
        = Cert.Spec.outFn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v8 (by decide))).trans (result_eq m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_main m ρ)

end Cert.KernelIdeal.Hand

end
-- ==== Proof.RefValue.lean ====
import proofs.«132609_j42717744726585_2_alg».proof.Proof.Gen.ReferenceIdeal.Run
import proofs.«132609_j42717744726585_2_alg».proof.Proof.Gen.ReferenceIdeal.Read
import proofs.«132609_j42717744726585_2_alg».proof.Proof.Spec
import Idealize.ShloMosaic.Lib.IdealHost

/-!
The reference program's result is the specification: each of its two input products is a sum over
the model axis, its spelling of the gate, g * (1 / (1 + exp (-g))), is g times the logistic of g, and
its last product is the sum over the hidden axis.
-/

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The reference's spelling of the gate: with the word of the real one, g * (1 / (1 + exp (-g)))
is g times the logistic of g (the logistic is defined as that quotient). -/
theorem gate_spelling (g : Ideal .f32) :
    FloatOps.mulf g (FloatOps.hostDivf (FloatOps.ofBits (F := Ideal) .f32 0x3F800000#32)
      (FloatOps.addf (FloatOps.ofBits (F := Ideal) .f32 0x3F800000#32)
        (FloatOps.hostUnary .exp (FloatOps.hostNegf g)))) = g * Ideal.logistic g := by
  rw [Ideal.ofBits_def, Ideal.ofBits_one_f32]
  rfl

/-- The left index of the first two products at (p, j) is (p, k), the right one (k, j). -/
theorem lidx0 (p : Fin 4096) (j : Fin 11008) (k : Fin 4096) : lidx_main_v0 (ix2 p j) k = ix2 p k :=
  funext fun a => Fin.ext (by match a with | ⟨0, _⟩ => rfl | ⟨1, _⟩ => rfl)
theorem ridx0 (p : Fin 4096) (j : Fin 11008) (k : Fin 4096) : ridx_main_v0 (ix2 p j) k = ix2 k j :=
  funext fun a => Fin.ext (by match a with | ⟨0, _⟩ => rfl | ⟨1, _⟩ => rfl)
theorem lidx1 (p : Fin 4096) (j : Fin 11008) (k : Fin 4096) : lidx_main_v1 (ix2 p j) k = ix2 p k :=
  funext fun a => Fin.ext (by match a with | ⟨0, _⟩ => rfl | ⟨1, _⟩ => rfl)
theorem ridx1 (p : Fin 4096) (j : Fin 11008) (k : Fin 4096) : ridx_main_v1 (ix2 p j) k = ix2 k j :=
  funext fun a => Fin.ext (by match a with | ⟨0, _⟩ => rfl | ⟨1, _⟩ => rfl)
/-- The left index of the last product at (p, e) is (p, k), the right one (k, e). -/
theorem lidx4 (p e : Fin 4096) (k : Fin 11008) : lidx_main_v4 (ix2 p e) k = ix2 p k :=
  funext fun a => Fin.ext (by match a with | ⟨0, _⟩ => rfl | ⟨1, _⟩ => rfl)
theorem ridx4 (p e : Fin 4096) (k : Fin 11008) : ridx_main_v4 (ix2 p e) k = ix2 k e :=
  funext fun a => Fin.ext (by match a with | ⟨0, _⟩ => rfl | ⟨1, _⟩ => rfl)

/-- The gated hidden activation of the reference, at (p, j), is the specification's. -/
theorem hidden_apply (x0 : (⟨S4096x4096, .f32⟩ : BufTy).Contents (Elt Ideal))
    (x1 x3 : (⟨S4096x11008, .f32⟩ : BufTy).Contents (Elt Ideal)) (p : Fin 4096) (j : Fin 11008) :
    val_main_v3 (F := Ideal) x0 x1 x3 (ix2 p j) = Cert.Spec.hidden x0 x1 x3 p j := by
  rw [val_main_v3_apply, val_main_v2_apply, val_main_call0_v5_apply, val_main_call0_v4_apply,
    val_main_call0_cst_0_apply, val_main_call0_v3_apply, val_main_call0_v2_apply,
    val_main_call0_cst_apply, val_main_call0_v1_apply, val_main_call0_v0_apply, gate_spelling,
    val_main_v0_apply, val_main_v1_apply]
  simp only [lidx0, ridx0, lidx1, ridx1]
  rfl

/-- The reference's result array is the specification. -/
theorem val_eq (x0 : (⟨S4096x4096, .f32⟩ : BufTy).Contents (Elt Ideal))
    (x1 : (⟨S4096x11008, .f32⟩ : BufTy).Contents (Elt Ideal))
    (x2 : (⟨S11008x4096, .f32⟩ : BufTy).Contents (Elt Ideal))
    (x3 : (⟨S4096x11008, .f32⟩ : BufTy).Contents (Elt Ideal)) :
    val_main_v4 (F := Ideal) x0 x1 x2 x3 = Cert.Spec.outFn x0 x1 x2 x3 := by
  funext i
  obtain ⟨p, e, rfl⟩ : ∃ (p e : Fin 4096), i = ix2 p e := ⟨i 0, i 1, eq_ix2 i⟩
  rw [val_main_v4_apply, Cert.Spec.outFn_ix2]
  unfold Cert.Spec.outAt
  refine Finset.sum_congr rfl fun k _ => ?_
  rw [lidx4, ridx4, hidden_apply]

/-- On every device, from any memory with zero counters, every weakly fair execution of the
reference terminates with its result the specification of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
        = Cert.Spec.outFn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans ((val_main_v4_eq _ _ _ _).trans (val_eq _ _ _ _)), (h c).2⟩)
    (Cert.ReferenceIdeal.Value.run (F := Ideal) m ρ)

end Cert.ReferenceIdeal.RefValue

end
-- ==== Proof.lean ====
/-
  A SwiGLU feed-forward block, out = (silu(x W1) * (x W3)) W2 with x : [4096, 4096], W1, W3 : [4096, 11008] and
  W2 : [11008, 4096], computed by two tiled kernels against the plain reference.

  The kernel program casts its operands, pads the hidden axis with zeros from 11008 to 11264 = 11 * 1024, and launches
  two pipelines over 1024 x 1024 blocks. The first accumulates x W1 and x W3 block by block over the 4 blocks of the
  contraction axis in two scratch accumulators carried from grid point to grid point, and at the last block stores
  silu(gate) * up; the second accumulates the product with the padded W2 over the 11 blocks of the hidden axis in its
  output block. On the extended reals a dot product is the sum of its blocks in any grouping, the logistic function is
  1 / (1 + exp(-g)) in both programs' spellings, and a padded hidden position contributes a product with zero, so both
  programs end at the same function of the arguments, entry by entry; no finiteness is used.

  Each frame is the program's run with the result dropped: both kernel programs (at the word level and idealized) run
  as six host stretches and two kernel regions whose bodies' triples are stated per branch case of the body; the
  reference is a straight line of host operations.
-/
import proofs.«132609_j42717744726585_2_alg».proof.Defs
import proofs.«132609_j42717744726585_2_alg».proof.Proof.Gen.Kernel
import proofs.«132609_j42717744726585_2_alg».proof.Proof.Gen.KernelIdeal
import proofs.«132609_j42717744726585_2_alg».proof.Proof.Gen.ReferenceIdeal
import proofs.«132609_j42717744726585_2_alg».proof.Proof.Gen.Pre_finite_inputs
import proofs.«132609_j42717744726585_2_alg».proof.Proof.KBRegions
import proofs.«132609_j42717744726585_2_alg».proof.Proof.KIValue
import proofs.«132609_j42717744726585_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : @Cert.frame_Kernel Cert.Kernel.Gen.facts Cert.Pre_finite_inputs.Gen.facts :=
  fun m ρ _ => Cert.Kernel.Hand.frame m ρ

/-- So does the idealized kernel program. -/
theorem frame_ki : @Cert.frame_KernelIdeal Cert.KernelIdeal.Gen.facts Cert.Pre_finite_inputs.Gen.facts :=
  fun m ρ _ => Cert.KernelIdeal.Hand.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run m ρ)

/-- Both idealized programs end at the specification of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
